-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x300 : Shape := ⟨2, ![100000, 300]⟩
abbrev S2x400000 : Shape := ⟨2, ![2, 400000]⟩
abbrev S400000x2 : Shape := ⟨2, ![400000, 2]⟩
abbrev S15000 : Shape := ⟨1, ![15000]⟩
abbrev S_ : Shape := ⟨0, ![]⟩
abbrev S300x300 : Shape := ⟨2, ![300, 300]⟩
abbrev S24x300 : Shape := ⟨2, ![24, 300]⟩
abbrev S7x300 : Shape := ⟨2, ![7, 300]⟩
abbrev S600x300 : Shape := ⟨2, ![600, 300]⟩
abbrev S600 : Shape := ⟨1, ![600]⟩
abbrev S300x600 : Shape := ⟨2, ![300, 600]⟩
abbrev S300 : Shape := ⟨1, ![300]⟩

class Facts : Prop where
  bcast_S_S100000x300 : S_.BroadcastsInDim S100000x300 (![] : Fin 0 → Fin S100000x300.rank)
  reducesTo_S100000x300_S_d0_1 : S100000x300.ReducesTo [0, 1] S_
  h_S_ : 0 < S_.numel
  reducesTo_S_S_d : S_.ReducesTo [] S_
  bcast_S_S300x300 : S_.BroadcastsInDim S300x300 (![] : Fin 0 → Fin S300x300.rank)
  reducesTo_S300x300_S_d0_1 : S300x300.ReducesTo [0, 1] S_
  bcast_S_S24x300 : S_.BroadcastsInDim S24x300 (![] : Fin 0 → Fin S24x300.rank)
  reducesTo_S24x300_S_d0_1 : S24x300.ReducesTo [0, 1] S_
  bcast_S_S7x300 : S_.BroadcastsInDim S7x300 (![] : Fin 0 → Fin S7x300.rank)
  reducesTo_S7x300_S_d0_1 : S7x300.ReducesTo [0, 1] S_
  bcast_S_S600x300 : S_.BroadcastsInDim S600x300 (![] : Fin 0 → Fin S600x300.rank)
  reducesTo_S600x300_S_d0_1 : S600x300.ReducesTo [0, 1] S_
  bcast_S_S600 : S_.BroadcastsInDim S600 (![] : Fin 0 → Fin S600.rank)
  reducesTo_S600_S_d0 : S600.ReducesTo [0] S_
  bcast_S_S300x600 : S_.BroadcastsInDim S300x600 (![] : Fin 0 → Fin S300x600.rank)
  reducesTo_S300x600_S_d0_1 : S300x600.ReducesTo [0, 1] S_
  bcast_S_S300 : S_.BroadcastsInDim S300 (![] : Fin 0 → Fin S300.rank)
  reducesTo_S300_S_d0 : S300.ReducesTo [0] S_

variable [Facts]

def fn_part2 {F : FTy → Type} [FloatOps F] (main_arg11 : FVec F S300 .f32) (main_v32 : IVec S_ 1) (main_v33 : FVec F S300x600 .f32) : IVec S_ 1 :=
  let main_cst_12 : FVec F S_ .f32 := constant S_ .f32 0x7F800000#32
  let main_v34 : FVec F S300x600 .f32 := broadcastInDim S300x600 ![] bcast_S_S300x600 main_cst_12
  let main_v35 : IVec S300x600 1 := cmpf .olt main_v33 main_v34
  let main_c_13 : IVec S_ 1 := constantI S_ 1 1#1
  let main_v36 : IVec S_ 1 := (fun x v => Host.reduce IntOp.andi x v reducesTo_S300x600_S_d0_1 h_S_) main_v35 main_c_13
  let main_v37 : IVec S_ 1 := andi main_v32 main_v36
  let main_v38 : FVec F S300 .f32 := Host.absf main_arg11
  let main_cst_14 : FVec F S_ .f32 := constant S_ .f32 0x7F800000#32
  let main_v39 : FVec F S300 .f32 := broadcastInDim S300 ![] bcast_S_S300 main_cst_14
  let main_v40 : IVec S300 1 := cmpf .olt main_v38 main_v39
  let main_c_15 : IVec S_ 1 := constantI S_ 1 1#1
  let main_v41 : IVec S_ 1 := (fun x v => Host.reduce IntOp.andi x v reducesTo_S300_S_d0 h_S_) main_v40 main_c_15
  let main_v42 : IVec S_ 1 := andi main_v37 main_v41
  main_v42

def fn_part1 {F : FTy → Type} [FloatOps F] (main_arg7 : FVec F S7x300 .f32) (main_arg8 : FVec F S600x300 .f32) (main_arg9 : FVec F S600 .f32) (main_arg10 : FVec F S300x600 .f32) (main_arg11 : FVec F S300 .f32) (main_v12 : IVec S_ 1) (main_v15 : IVec S24x300 1) (main_c_5 : IVec S_ 1) : IVec S_ 1 :=
  let main_v16 : IVec S_ 1 := (fun x v => Host.reduce IntOp.andi x v reducesTo_S24x300_S_d0_1 h_S_) main_v15 main_c_5
  let main_v17 : IVec S_ 1 := andi main_v12 main_v16
  let main_v18 : FVec F S7x300 .f32 := Host.absf main_arg7
  let main_cst_6 : FVec F S_ .f32 := constant S_ .f32 0x7F800000#32
  let main_v19 : FVec F S7x300 .f32 := broadcastInDim S7x300 ![] bcast_S_S7x300 main_cst_6
  let main_v20 : IVec S7x300 1 := cmpf .olt main_v18 main_v19
  let main_c_7 : IVec S_ 1 := constantI S_ 1 1#1
  let main_v21 : IVec S_ 1 := (fun x v => Host.reduce IntOp.andi x v reducesTo_S7x300_S_d0_1 h_S_) main_v20 main_c_7
  let main_v22 : IVec S_ 1 := andi main_v17 main_v21
  let main_v23 : FVec F S600x300 .f32 := Host.absf main_arg8
  let main_cst_8 : FVec F S_ .f32 := constant S_ .f32 0x7F800000#32
  let main_v24 : FVec F S600x300 .f32 := broadcastInDim S600x300 ![] bcast_S_S600x300 main_cst_8
  let main_v25 : IVec S600x300 1 := cmpf .olt main_v23 main_v24
  let main_c_9 : IVec S_ 1 := constantI S_ 1 1#1
  let main_v26 : IVec S_ 1 := (fun x v => Host.reduce IntOp.andi x v reducesTo_S600x300_S_d0_1 h_S_) main_v25 main_c_9
  let main_v27 : IVec S_ 1 := andi main_v22 main_v26
  let main_v28 : FVec F S600 .f32 := Host.absf main_arg9
  let main_cst_10 : FVec F S_ .f32 := constant S_ .f32 0x7F800000#32
  let main_v29 : FVec F S600 .f32 := broadcastInDim S600 ![] bcast_S_S600 main_cst_10
  let main_v30 : IVec S600 1 := cmpf .olt main_v28 main_v29
  let main_c_11 : IVec S_ 1 := constantI S_ 1 1#1
  let main_v31 : IVec S_ 1 := (fun x v => Host.reduce IntOp.andi x v reducesTo_S600_S_d0 h_S_) main_v30 main_c_11
  let main_v32 : IVec S_ 1 := andi main_v27 main_v31
  let main_v33 : FVec F S300x600 .f32 := Host.absf main_arg10
  fn_part2 (F := F) main_arg11 main_v32 main_v33

def fn {F : FTy → Type} [FloatOps F] (main_arg0 : FVec F S100000x300 .f32) (main_arg1 : IVec S2x400000 32) (main_arg2 : IVec S400000x2 32) (main_arg3 : IVec S15000 32) (main_arg4 : FVec F S_ .f32) (main_arg5 : FVec F S300x300 .f32) (main_arg6 : FVec F S24x300 .f32) (main_arg7 : FVec F S7x300 .f32) (main_arg8 : FVec F S600x300 .f32) (main_arg9 : FVec F S600 .f32) (main_arg10 : FVec F S300x600 .f32) (main_arg11 : FVec F S300 .f32) : IVec S_ 1 :=
  let main_v0 : FVec F S100000x300 .f32 := Host.absf main_arg0
  let main_cst : FVec F S_ .f32 := constant S_ .f32 0x7F800000#32
  let main_v1 : FVec F S100000x300 .f32 := broadcastInDim S100000x300 ![] bcast_S_S100000x300 main_cst
  let main_v2 : IVec S100000x300 1 := cmpf .olt main_v0 main_v1
  let main_c : IVec S_ 1 := constantI S_ 1 1#1
  let main_v3 : IVec S_ 1 := (fun x v => Host.reduce IntOp.andi x v reducesTo_S100000x300_S_d0_1 h_S_) main_v2 main_c
  let main_v4 : FVec F S_ .f32 := Host.absf main_arg4
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S300x300 .f32 := Host.absf main_arg5
  let main_cst_2 : FVec F S_ .f32 := constant S_ .f32 0x7F800000#32
  let main_v9 : FVec F S300x300 .f32 := broadcastInDim S300x300 ![] bcast_S_S300x300 main_cst_2
  let main_v10 : IVec S300x300 1 := cmpf .olt main_v8 main_v9
  let main_c_3 : IVec S_ 1 := constantI S_ 1 1#1
  let main_v11 : IVec S_ 1 := (fun x v => Host.reduce IntOp.andi x v reducesTo_S300x300_S_d0_1 h_S_) main_v10 main_c_3
  let main_v12 : IVec S_ 1 := andi main_v7 main_v11
  let main_v13 : FVec F S24x300 .f32 := Host.absf main_arg6
  let main_cst_4 : FVec F S_ .f32 := constant S_ .f32 0x7F800000#32
  let main_v14 : FVec F S24x300 .f32 := broadcastInDim S24x300 ![] bcast_S_S24x300 main_cst_4
  let main_v15 : IVec S24x300 1 := cmpf .olt main_v13 main_v14
  let main_c_5 : IVec S_ 1 := constantI S_ 1 1#1
  fn_part1 (F := F) main_arg7 main_arg8 main_arg9 main_arg10 main_arg11 main_v12 main_v15 main_c_5
-- ==== Kernel.lean ====
abbrev S100000x300 : Shape := ⟨2, ![100000, 300]⟩
abbrev S2x400000 : Shape := ⟨2, ![2, 400000]⟩
abbrev S400000x2 : Shape := ⟨2, ![400000, 2]⟩
abbrev S15000 : Shape := ⟨1, ![15000]⟩
abbrev S_ : Shape := ⟨0, ![]⟩
abbrev S300x300 : Shape := ⟨2, ![300, 300]⟩
abbrev S24x300 : Shape := ⟨2, ![24, 300]⟩
abbrev S7x300 : Shape := ⟨2, ![7, 300]⟩
abbrev S600x300 : Shape := ⟨2, ![600, 300]⟩
abbrev S600 : Shape := ⟨1, ![600]⟩
abbrev S300x600 : Shape := ⟨2, ![300, 600]⟩
abbrev S300 : Shape := ⟨1, ![300]⟩
abbrev S100000x1 : Shape := ⟨2, ![100000, 1]⟩
abbrev S15000x1 : Shape := ⟨2, ![15000, 1]⟩
abbrev S15000x2 : Shape := ⟨2, ![15000, 2]⟩
abbrev S1x1 : Shape := ⟨2, ![1, 1]⟩
abbrev S2000x300 : Shape := ⟨2, ![2000, 300]⟩
abbrev S2000x1 : Shape := ⟨2, ![2000, 1]⟩
abbrev S100000 : Shape := ⟨1, ![100000]⟩
abbrev S1x400000 : Shape := ⟨2, ![1, 400000]⟩
abbrev S400000 : Shape := ⟨1, ![400000]⟩
abbrev S500000 : Shape := ⟨1, ![500000]⟩
abbrev S400000x1 : Shape := ⟨2, ![400000, 1]⟩
abbrev S500000x1 : Shape := ⟨2, ![500000, 1]⟩
abbrev S500000x300 : Shape := ⟨2, ![500000, 300]⟩
abbrev S1x600 : Shape := ⟨2, ![1, 600]⟩
abbrev S1x300 : Shape := ⟨2, ![1, 300]⟩
abbrev S2000x600 : Shape := ⟨2, ![2000, 600]⟩

abbrev nBuf : Space → Nat
  | .hbm => 92
  | .vmem => 16
  | .smem => 0
  | _ => 0

abbrev bufTy : (tb : Table) → Fin (tcTables nBuf tb) → BufTy
  | .hbm, ⟨0, _⟩ => ⟨S100000x300, .f32⟩
  | .hbm, ⟨1, _⟩ => ⟨S2x400000, .i32⟩
  | .hbm, ⟨2, _⟩ => ⟨S400000x2, .i32⟩
  | .hbm, ⟨3, _⟩ => ⟨S15000, .i32⟩
  | .hbm, ⟨4, _⟩ => ⟨S_, .f32⟩
  | .hbm, ⟨5, _⟩ => ⟨S300x300, .f32⟩
  | .hbm, ⟨6, _⟩ => ⟨S24x300, .f32⟩
  | .hbm, ⟨7, _⟩ => ⟨S7x300, .f32⟩
  | .hbm, ⟨8, _⟩ => ⟨S600x300, .f32⟩
  | .hbm, ⟨9, _⟩ => ⟨S600, .f32⟩
  | .hbm, ⟨10, _⟩ => ⟨S300x600, .f32⟩
  | .hbm, ⟨11, _⟩ => ⟨S300, .f32⟩
  | .hbm, ⟨12, _⟩ => ⟨S_, .f32⟩
  | .hbm, ⟨13, _⟩ => ⟨S100000x1, .f32⟩
  | .hbm, ⟨14, _⟩ => ⟨S_, .i32⟩
  | .hbm, ⟨15, _⟩ => ⟨S15000, .i32⟩
  | .hbm, ⟨16, _⟩ => ⟨S15000, .i1⟩
  | .hbm, ⟨17, _⟩ => ⟨S_, .i32⟩
  | .hbm, ⟨18, _⟩ => ⟨S15000, .i32⟩
  | .hbm, ⟨19, _⟩ => ⟨S15000, .i32⟩
  | .hbm, ⟨20, _⟩ => ⟨S15000, .i32⟩
  | .hbm, ⟨21, _⟩ => ⟨S_, .i32⟩
  | .hbm, ⟨22, _⟩ => ⟨S15000, .i32⟩
  | .hbm, ⟨23, _⟩ => ⟨S15000, .i32⟩
  | .hbm, ⟨24, _⟩ => ⟨S15000x1, .i32⟩
  | .hbm, ⟨25, _⟩ => ⟨S15000x1, .i32⟩
  | .hbm, ⟨26, _⟩ => ⟨S15000x2, .i32⟩
  | .hbm, ⟨27, _⟩ => ⟨S_, .f32⟩
  | .hbm, ⟨28, _⟩ => ⟨S15000, .f32⟩
  | .hbm, ⟨29, _⟩ => ⟨S100000x1, .f32⟩
  | .hbm, ⟨30, _⟩ => ⟨S300x300, .f32⟩
  | .hbm, ⟨31, _⟩ => ⟨S300x300, .bf16⟩
  | .hbm, ⟨32, _⟩ => ⟨S1x1, .f32⟩
  | .hbm, ⟨33, _⟩ => ⟨S100000x300, .bf16⟩
  | .hbm, ⟨34, _⟩ => ⟨S100000, .i32⟩
  | .hbm, ⟨35, _⟩ => ⟨S1x400000, .i32⟩
  | .hbm, ⟨36, _⟩ => ⟨S400000, .i32⟩
  | .hbm, ⟨37, _⟩ => ⟨S500000, .i32⟩
  | .hbm, ⟨38, _⟩ => ⟨S1x400000, .i32⟩
  | .hbm, ⟨39, _⟩ => ⟨S400000, .i32⟩
  | .hbm, ⟨40, _⟩ => ⟨S500000, .i32⟩
  | .hbm, ⟨41, _⟩ => ⟨S400000x1, .i32⟩
  | .hbm, ⟨42, _⟩ => ⟨S400000, .i32⟩
  | .hbm, ⟨43, _⟩ => ⟨S_, .i32⟩
  | .hbm, ⟨44, _⟩ => ⟨S100000, .i32⟩
  | .hbm, ⟨45, _⟩ => ⟨S500000, .i32⟩
  | .hbm, ⟨46, _⟩ => ⟨S400000x1, .i32⟩
  | .hbm, ⟨47, _⟩ => ⟨S400000, .i32⟩
  | .hbm, ⟨48, _⟩ => ⟨S_, .i32⟩
  | .hbm, ⟨49, _⟩ => ⟨S100000, .i32⟩
  | .hbm, ⟨50, _⟩ => ⟨S500000, .i32⟩
  | .hbm, ⟨51, _⟩ => ⟨S_, .i32⟩
  | .hbm, ⟨52, _⟩ => ⟨S500000, .i32⟩
  | .hbm, ⟨53, _⟩ => ⟨S500000, .i1⟩
  | .hbm, ⟨54, _⟩ => ⟨S_, .i32⟩
  | .hbm, ⟨55, _⟩ => ⟨S500000, .i32⟩
  | .hbm, ⟨56, _⟩ => ⟨S500000, .i32⟩
  | .hbm, ⟨57, _⟩ => ⟨S500000, .i32⟩
  | .hbm, ⟨58, _⟩ => ⟨S500000x1, .i32⟩
  | .hbm, ⟨59, _⟩ => ⟨S500000x300, .f32⟩
  | .hbm, ⟨60, _⟩ => ⟨S_, .i32⟩
  | .hbm, ⟨61, _⟩ => ⟨S500000, .i32⟩
  | .hbm, ⟨62, _⟩ => ⟨S500000, .i1⟩
  | .hbm, ⟨63, _⟩ => ⟨S_, .i32⟩
  | .hbm, ⟨64, _⟩ => ⟨S500000, .i32⟩
  | .hbm, ⟨65, _⟩ => ⟨S500000, .i32⟩
  | .hbm, ⟨66, _⟩ => ⟨S500000, .i32⟩
  | .hbm, ⟨67, _⟩ => ⟨S500000x1, .i32⟩
  | .hbm, ⟨68, _⟩ => ⟨S500000x300, .f32⟩
  | .hbm, ⟨69, _⟩ => ⟨S500000x300, .f32⟩
  | .hbm, ⟨70, _⟩ => ⟨S100000x300, .f32⟩
  | .hbm, ⟨71, _⟩ => ⟨S_, .i32⟩
  | .hbm, ⟨72, _⟩ => ⟨S500000, .i32⟩
  | .hbm, ⟨73, _⟩ => ⟨S500000, .i1⟩
  | .hbm, ⟨74, _⟩ => ⟨S_, .i32⟩
  | .hbm, ⟨75, _⟩ => ⟨S500000, .i32⟩
  | .hbm, ⟨76, _⟩ => ⟨S500000, .i32⟩
  | .hbm, ⟨77, _⟩ => ⟨S500000, .i32⟩
  | .hbm, ⟨78, _⟩ => ⟨S500000x1, .i32⟩
  | .hbm, ⟨79, _⟩ => ⟨S500000x300, .f32⟩
  | .hbm, ⟨80, _⟩ => ⟨S500000x300, .f32⟩
  | .hbm, ⟨81, _⟩ => ⟨S_, .f32⟩
  | .hbm, ⟨82, _⟩ => ⟨S100000x300, .f32⟩
  | .hbm, ⟨83, _⟩ => ⟨S500000x1, .i32⟩
  | .hbm, ⟨84, _⟩ => ⟨S100000x300, .f32⟩
  | .hbm, ⟨85, _⟩ => ⟨S300x600, .f32⟩
  | .hbm, ⟨86, _⟩ => ⟨S300x600, .bf16⟩
  | .hbm, ⟨87, _⟩ => ⟨S600x300, .f32⟩
  | .hbm, ⟨88, _⟩ => ⟨S600x300, .bf16⟩
  | .hbm, ⟨89, _⟩ => ⟨S1x600, .f32⟩
  | .hbm, ⟨90, _⟩ => ⟨S1x300, .f32⟩
  | .hbm, ⟨91, _⟩ => ⟨S100000x300, .f32⟩
  | .local _ .vmem, ⟨0, _⟩ => ⟨S1x1, .f32⟩
  | .local _ .vmem, ⟨1, _⟩ => ⟨S2000x300, .f32⟩
  | .local _ .vmem, ⟨2, _⟩ => ⟨S2000x300, .f32⟩
  | .local _ .vmem, ⟨3, _⟩ => ⟨S300x300, .bf16⟩
  | .local _ .vmem, ⟨4, _⟩ => ⟨S2000x1, .f32⟩
  | .local _ .vmem, ⟨5, _⟩ => ⟨S2000x1, .f32⟩
  | .local _ .vmem, ⟨6, _⟩ => ⟨S2000x300, .bf16⟩
  | .local _ .vmem, ⟨7, _⟩ => ⟨S2000x300, .bf16⟩
  | .local _ .vmem, ⟨8, _⟩ => ⟨S2000x300, .f32⟩
  | .local _ .vmem, ⟨9, _⟩ => ⟨S2000x300, .f32⟩
  | .local _ .vmem, ⟨10, _⟩ => ⟨S300x600, .bf16⟩
  | .local _ .vmem, ⟨11, _⟩ => ⟨S1x600, .f32⟩
  | .local _ .vmem, ⟨12, _⟩ => ⟨S600x300, .bf16⟩
  | .local _ .vmem, ⟨13, _⟩ => ⟨S1x300, .f32⟩
  | .local _ .vmem, ⟨14, _⟩ => ⟨S2000x300, .f32⟩
  | .local _ .vmem, ⟨15, _⟩ => ⟨S2000x300, .f32⟩
  | _, _ => ⟨S100000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_v39 : Ref sig .tc := ⟨.hbm, 61, rfl⟩
abbrev main_v40 : Ref sig .tc := ⟨.hbm, 62, rfl⟩
abbrev main_c_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2000x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S300x300 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x300 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S300x600 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x600 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S600x300 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x300 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x300 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S100000x1 : S_.BroadcastsInDim S100000x1 (![] : Fin 0 → Fin S100000x1.rank)
  bcast_S_S15000 : S_.BroadcastsInDim S15000 (![] : Fin 0 → Fin S15000.rank)
  bcast_S15000_S15000x1_0 : S15000.BroadcastsInDim S15000x1 (![0] : Fin 1 → Fin S15000x1.rank)
  concatenates_S15000x1_S15000x1_S15000x2_d1 : Shape.Concatenates [S15000x1, S15000x1] S15000x2 1
  transposes_S300x300_S300x300_1_0 : S300x300.Transposes [1, 0] S300x300
  bitsLt_bf16_f32 : FTy.bits .bf16 < FTy.bits .f32
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inpos_S1x1_p0_0 : ∀ a, (![0, 0] : Fin 2 → Nat) a < S1x1.size a
  inb_S2000x300_S2000x300_0_0 : ∀ a, (![0, 0] : Fin 2 → Nat) a + S2000x300.size a ≤ S2000x300.size a
  h_S2000x300 : 0 < S2000x300.numel
  inb_S300x300_S300x300_0_0 : ∀ a, (![0, 0] : Fin 2 → Nat) a + S300x300.size a ≤ S300x300.size a
  h_S300x300 : 0 < S300x300.numel
  shapeCasts_S300x300_S300x300 : S300x300.ShapeCasts S300x300
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x300 : S2000x1.Broadcasts S2000x300
  packedbf16_S2000x300_S2000x300_0_0 : (Rect.unit (s := S2000x300) ![0, 0] S2000x300.size inb_S2000x300_S2000x300_0_0).PackedRows (EltTy.packing .bf16)
  slices_S2x400000_S1x400000_0_0 : S2x400000.Slices ![0, 0] S1x400000
  shapeCasts_S1x400000_S400000 : S1x400000.ShapeCasts S400000
  concatenates_S400000_S100000_S500000_d0 : Shape.Concatenates [S400000, S100000] S500000 0
  slices_S2x400000_S1x400000_1_0 : S2x400000.Slices ![1, 0] S1x400000
  slices_S400000x2_S400000x1_0_0 : S400000x2.Slices ![0, 0] S400000x1
  shapeCasts_S400000x1_S400000 : S400000x1.ShapeCasts S400000
  bcast_S_S100000 : S_.BroadcastsInDim S100000 (![] : Fin 0 → Fin S100000.rank)
  slices_S400000x2_S400000x1_0_1 : S400000x2.Slices ![0, 1] S400000x1
  bcast_S_S500000 : S_.BroadcastsInDim S500000 (![] : Fin 0 → Fin S500000.rank)
  bcast_S500000_S500000x1_0 : S500000.BroadcastsInDim S500000x1 (![0] : Fin 1 → Fin S500000x1.rank)
  bcast_S_S100000x300 : S_.BroadcastsInDim S100000x300 (![] : Fin 0 → Fin S100000x300.rank)
  transposes_S600x300_S300x600_1_0 : S600x300.Transposes [1, 0] S300x600
  transposes_S300x600_S600x300_1_0 : S300x600.Transposes [1, 0] S600x300
  shapeCasts_S600_S1x600 : S600.ShapeCasts S1x600
  shapeCasts_S300_S1x300 : S300.ShapeCasts S1x300
  shapeCasts_S2000x300_S2000x300 : S2000x300.ShapeCasts S2000x300
  inb_S300x600_S300x600_0_0 : ∀ a, (![0, 0] : Fin 2 → Nat) a + S300x600.size a ≤ S300x600.size a
  h_S300x600 : 0 < S300x600.numel
  shapeCasts_S300x600_S300x600 : S300x600.ShapeCasts S300x600
  inb_S1x600_S1x600_0_0 : ∀ a, (![0, 0] : Fin 2 → Nat) a + S1x600.size a ≤ S1x600.size a
  h_S1x600 : 0 < S1x600.numel
  shapeCasts_S1x600_S1x600 : S1x600.ShapeCasts S1x600
  broadcasts_S1x600_S2000x600 : S1x600.Broadcasts S2000x600
  inb_S600x300_S600x300_0_0 : ∀ a, (![0, 0] : Fin 2 → Nat) a + S600x300.size a ≤ S600x300.size a
  h_S600x300 : 0 < S600x300.numel
  shapeCasts_S600x300_S600x300 : S600x300.ShapeCasts S600x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2000x300 : S1x300.Broadcasts S2000x300
  scatter_S100000x1_S15000x2_S15000_n_01_01_1_wf : ScatterDims.WF S100000x1 S15000x2 S15000 [] [0, 1] [0, 1] 1
  dot_S2000x300_S300x300_S2000x300_1_0_0_1_n_n_wf : DotDims.WF S2000x300 S300x300 S2000x300 [1] [0] [0] [1] [] []
  gather_S24x300_S500000x1_S500000x300_1_0_n_n_0_1_1300_wf : GatherDims.WF S24x300 S500000x1 S500000x300 [1] [0] [] [0] [] 1 ![1, 300]
  gather_S7x300_S500000x1_S500000x300_1_0_n_n_0_1_1300_wf : GatherDims.WF S7x300 S500000x1 S500000x300 [1] [0] [] [0] [] 1 ![1, 300]
  gather_S100000x300_S500000x1_S500000x300_1_0_n_n_0_1_1300_wf : GatherDims.WF S100000x300 S500000x1 S500000x300 [1] [0] [] [0] [] 1 ![1, 300]
  scatter_S100000x300_S500000x1_S500000x300_1_0_0_1_wf : ScatterDims.WF S100000x300 S500000x1 S500000x300 [1] [0] [0] 1
  dot_S2000x300_S300x600_S2000x600_1_0_0_1_n_n_wf : DotDims.WF S2000x300 S300x600 S2000x600 [1] [0] [0] [1] [] []
  dot_S2000x600_S600x300_S2000x300_1_0_0_1_n_n_wf : DotDims.WF S2000x600 S600x300 S2000x300 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x300.size a ≤ S100000x300.size a
  hwx0_1 : ∀ i : grid0.Coords, EltTy.bits .f32 = 32 ∨ (Rect.block (s := S100000x300) S2000x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S300x300.size a ≤ S300x300.size a
  hwx0_2 : ∀ i : grid0.Coords, EltTy.bits .bf16 = 32 ∨ (Rect.block (s := S300x300) S300x300.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .f32 = 32 ∨ (Rect.block (s := S100000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x300.size a ≤ S100000x300.size a
  hwx0_4 : ∀ i : grid0.Coords, EltTy.bits .bf16 = 32 ∨ (Rect.block (s := S100000x300) S2000x300.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x300.size a ≤ S100000x300.size a
  hwx1_0 : ∀ i : grid1.Coords, EltTy.bits .f32 = 32 ∨ (Rect.block (s := S100000x300) S2000x300.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S300x600.size a ≤ S300x600.size a
  hwx1_1 : ∀ i : grid1.Coords, EltTy.bits .bf16 = 32 ∨ (Rect.block (s := S300x600) S300x600.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x600.size a ≤ S1x600.size a
  hwx1_2 : ∀ i : grid1.Coords, EltTy.bits .f32 = 32 ∨ (Rect.block (s := S1x600) S1x600.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S600x300.size a ≤ S600x300.size a
  hwx1_3 : ∀ i : grid1.Coords, EltTy.bits .bf16 = 32 ∨ (Rect.block (s := S600x300) S600x300.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x300.size a ≤ S1x300.size a
  hwx1_4 : ∀ i : grid1.Coords, EltTy.bits .f32 = 32 ∨ (Rect.block (s := S1x300) S1x300.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x300.size a ≤ S100000x300.size a
  hwx1_5 : ∀ i : grid1.Coords, EltTy.bits .f32 = 32 ∨ (Rect.block (s := S100000x300) S2000x300.size (cc1_transform_5 i) (hinb1_5 i)).WholeWords (EltTy.packing .f32)

variable [Facts₀]

def scatter_S100000x1_S15000x2_S15000_n_01_01_1 : ScatterDims S100000x1 S15000x2 S15000 where
  updateWindowDims := []
  insertedWindowDims := [0, 1]
  scatterDimsToOperandDims := [0, 1]
  indexVectorDim := 1
  wf := scatter_S100000x1_S15000x2_S15000_n_01_01_1_wf
def dot_S2000x300_S300x300_S2000x300_1_0_0_1_n_n : DotDims S2000x300 S300x300 S2000x300 where
  lhsContracting := [1]
  rhsContracting := [0]
  lhsNonContracting := [0]
  rhsNonContracting := [1]
  lhsBatch := []
  rhsBatch := []
  wf := dot_S2000x300_S300x300_S2000x300_1_0_0_1_n_n_wf
def gather_S24x300_S500000x1_S500000x300_1_0_n_n_0_1_1300 : GatherDims S24x300 S500000x1 S500000x300 where
  offsetDims := [1]
  collapsedSliceDims := [0]
  operandBatchingDims := []
  startIndicesBatchingDims := []
  startIndexMap := [0]
  indexVectorDim := 1
  sliceSizes := ![1, 300]
  wf := gather_S24x300_S500000x1_S500000x300_1_0_n_n_0_1_1300_wf
def gather_S7x300_S500000x1_S500000x300_1_0_n_n_0_1_1300 : GatherDims S7x300 S500000x1 S500000x300 where
  offsetDims := [1]
  collapsedSliceDims := [0]
  operandBatchingDims := []
  startIndicesBatchingDims := []
  startIndexMap := [0]
  indexVectorDim := 1
  sliceSizes := ![1, 300]
  wf := gather_S7x300_S500000x1_S500000x300_1_0_n_n_0_1_1300_wf
def gather_S100000x300_S500000x1_S500000x300_1_0_n_n_0_1_1300 : GatherDims S100000x300 S500000x1 S500000x300 where
  offsetDims := [1]
  collapsedSliceDims := [0]
  operandBatchingDims := []
  startIndicesBatchingDims := []
  startIndexMap := [0]
  indexVectorDim := 1
  sliceSizes := ![1, 300]
  wf := gather_S100000x300_S500000x1_S500000x300_1_0_n_n_0_1_1300_wf
def scatter_S100000x300_S500000x1_S500000x300_1_0_0_1 : ScatterDims S100000x300 S500000x1 S500000x300 where
  updateWindowDims := [1]
  insertedWindowDims := [0]
  scatterDimsToOperandDims := [0]
  indexVectorDim := 1
  wf := scatter_S100000x300_S500000x1_S500000x300_1_0_0_1_wf
def dot_S2000x300_S300x600_S2000x600_1_0_0_1_n_n : DotDims S2000x300 S300x600 S2000x600 where
  lhsContracting := [1]
  rhsContracting := [0]
  lhsNonContracting := [0]
  rhsNonContracting := [1]
  lhsBatch := []
  rhsBatch := []
  wf := dot_S2000x300_S300x600_S2000x600_1_0_0_1_n_n_wf
def dot_S2000x600_S600x300_S2000x300_1_0_0_1_n_n : DotDims S2000x600 S600x300 S2000x300 where
  lhsContracting := [1]
  rhsContracting := [0]
  lhsNonContracting := [0]
  rhsNonContracting := [1]
  lhsBatch := []
  rhsBatch := []
  wf := dot_S2000x600_S600x300_S2000x300_1_0_0_1_n_n_wf

abbrev win0_0 : Pipeline.Window sig grid0 :=
  Pipeline.Window.ofSpec (Memref.whole main_v15) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x300.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S300x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S2000x300.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v58) S2000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S300x600.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v63) S1x600.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v62) S600x300.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v64) S1x300.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v65) S2000x300.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x300 : Shape := ⟨2, ![100000, 300]⟩
abbrev S2x400000 : Shape := ⟨2, ![2, 400000]⟩
abbrev S400000x2 : Shape := ⟨2, ![400000, 2]⟩
abbrev S15000 : Shape := ⟨1, ![15000]⟩
abbrev S_ : Shape := ⟨0, ![]⟩
abbrev S300x300 : Shape := ⟨2, ![300, 300]⟩
abbrev S24x300 : Shape := ⟨2, ![24, 300]⟩
abbrev S7x300 : Shape := ⟨2, ![7, 300]⟩
abbrev S600x300 : Shape := ⟨2, ![600, 300]⟩
abbrev S600 : Shape := ⟨1, ![600]⟩
abbrev S300x600 : Shape := ⟨2, ![300, 600]⟩
abbrev S300 : Shape := ⟨1, ![300]⟩
abbrev S15000x1 : Shape := ⟨2, ![15000, 1]⟩
abbrev S15000x300 : Shape := ⟨2, ![15000, 300]⟩
abbrev S100000 : Shape := ⟨1, ![100000]⟩
abbrev S1x400000 : Shape := ⟨2, ![1, 400000]⟩
abbrev S400000 : Shape := ⟨1, ![400000]⟩
abbrev S500000 : Shape := ⟨1, ![500000]⟩
abbrev S400000x1 : Shape := ⟨2, ![400000, 1]⟩
abbrev S500000x1 : Shape := ⟨2, ![500000, 1]⟩
abbrev S500000x300 : Shape := ⟨2, ![500000, 300]⟩
abbrev S100000x600 : Shape := ⟨2, ![100000, 600]⟩
abbrev S1x600 : Shape := ⟨2, ![1, 600]⟩
abbrev S1x300 : Shape := ⟨2, ![1, 300]⟩

abbrev nBuf : Space → Nat
  | .hbm => 94
  | .vmem => 0
  | .smem => 0
  | _ => 0

abbrev bufTy : (tb : Table) → Fin (tcTables nBuf tb) → BufTy
  | .hbm, ⟨0, _⟩ => ⟨S100000x300, .f32⟩
  | .hbm, ⟨1, _⟩ => ⟨S2x400000, .i32⟩
  | .hbm, ⟨2, _⟩ => ⟨S400000x2, .i32⟩
  | .hbm, ⟨3, _⟩ => ⟨S15000, .i32⟩
  | .hbm, ⟨4, _⟩ => ⟨S_, .f32⟩
  | .hbm, ⟨5, _⟩ => ⟨S300x300, .f32⟩
  | .hbm, ⟨6, _⟩ => ⟨S24x300, .f32⟩
  | .hbm, ⟨7, _⟩ => ⟨S7x300, .f32⟩
  | .hbm, ⟨8, _⟩ => ⟨S600x300, .f32⟩
  | .hbm, ⟨9, _⟩ => ⟨S600, .f32⟩
  | .hbm, ⟨10, _⟩ => ⟨S300x600, .f32⟩
  | .hbm, ⟨11, _⟩ => ⟨S300, .f32⟩
  | .hbm, ⟨12, _⟩ => ⟨S_, .f32⟩
  | .hbm, ⟨13, _⟩ => ⟨S100000x300, .f32⟩
  | .hbm, ⟨14, _⟩ => ⟨S100000x300, .i1⟩
  | .hbm, ⟨15, _⟩ => ⟨S100000x300, .f32⟩
  | .hbm, ⟨16, _⟩ => ⟨S100000x300, .f32⟩
  | .hbm, ⟨17, _⟩ => ⟨S100000x300, .f32⟩
  | .hbm, ⟨18, _⟩ => ⟨S300x300, .f32⟩
  | .hbm, ⟨19, _⟩ => ⟨S100000x300, .f32⟩
  | .hbm, ⟨20, _⟩ => ⟨S_, .i32⟩
  | .hbm, ⟨21, _⟩ => ⟨S15000, .i32⟩
  | .hbm, ⟨22, _⟩ => ⟨S15000, .i1⟩
  | .hbm, ⟨23, _⟩ => ⟨S_, .i32⟩
  | .hbm, ⟨24, _⟩ => ⟨S15000, .i32⟩
  | .hbm, ⟨25, _⟩ => ⟨S15000, .i32⟩
  | .hbm, ⟨26, _⟩ => ⟨S15000, .i32⟩
  | .hbm, ⟨27, _⟩ => ⟨S15000x1, .i32⟩
  | .hbm, ⟨28, _⟩ => ⟨S_, .f32⟩
  | .hbm, ⟨29, _⟩ => ⟨S15000x300, .f32⟩
  | .hbm, ⟨30, _⟩ => ⟨S100000x300, .f32⟩
  | .hbm, ⟨31, _⟩ => ⟨S100000, .i32⟩
  | .hbm, ⟨32, _⟩ => ⟨S1x400000, .i32⟩
  | .hbm, ⟨33, _⟩ => ⟨S400000, .i32⟩
  | .hbm, ⟨34, _⟩ => ⟨S500000, .i32⟩
  | .hbm, ⟨35, _⟩ => ⟨S1x400000, .i32⟩
  | .hbm, ⟨36, _⟩ => ⟨S400000, .i32⟩
  | .hbm, ⟨37, _⟩ => ⟨S500000, .i32⟩
  | .hbm, ⟨38, _⟩ => ⟨S400000x1, .i32⟩
  | .hbm, ⟨39, _⟩ => ⟨S400000, .i32⟩
  | .hbm, ⟨40, _⟩ => ⟨S_, .i32⟩
  | .hbm, ⟨41, _⟩ => ⟨S100000, .i32⟩
  | .hbm, ⟨42, _⟩ => ⟨S500000, .i32⟩
  | .hbm, ⟨43, _⟩ => ⟨S400000x1, .i32⟩
  | .hbm, ⟨44, _⟩ => ⟨S400000, .i32⟩
  | .hbm, ⟨45, _⟩ => ⟨S_, .i32⟩
  | .hbm, ⟨46, _⟩ => ⟨S100000, .i32⟩
  | .hbm, ⟨47, _⟩ => ⟨S500000, .i32⟩
  | .hbm, ⟨48, _⟩ => ⟨S_, .i32⟩
  | .hbm, ⟨49, _⟩ => ⟨S500000, .i32⟩
  | .hbm, ⟨50, _⟩ => ⟨S500000, .i1⟩
  | .hbm, ⟨51, _⟩ => ⟨S_, .i32⟩
  | .hbm, ⟨52, _⟩ => ⟨S500000, .i32⟩
  | .hbm, ⟨53, _⟩ => ⟨S500000, .i32⟩
  | .hbm, ⟨54, _⟩ => ⟨S500000, .i32⟩
  | .hbm, ⟨55, _⟩ => ⟨S500000x1, .i32⟩
  | .hbm, ⟨56, _⟩ => ⟨S500000x300, .f32⟩
  | .hbm, ⟨57, _⟩ => ⟨S_, .i32⟩
  | .hbm, ⟨58, _⟩ => ⟨S500000, .i32⟩
  | .hbm, ⟨59, _⟩ => ⟨S500000, .i1⟩
  | .hbm, ⟨60, _⟩ => ⟨S_, .i32⟩
  | .hbm, ⟨61, _⟩ => ⟨S500000, .i32⟩
  | .hbm, ⟨62, _⟩ => ⟨S500000, .i32⟩
  | .hbm, ⟨63, _⟩ => ⟨S500000, .i32⟩
  | .hbm, ⟨64, _⟩ => ⟨S500000x1, .i32⟩
  | .hbm, ⟨65, _⟩ => ⟨S500000x300, .f32⟩
  | .hbm, ⟨66, _⟩ => ⟨S500000x300, .f32⟩
  | .hbm, ⟨67, _⟩ => ⟨S_, .i32⟩
  | .hbm, ⟨68, _⟩ => ⟨S500000, .i32⟩
  | .hbm, ⟨69, _⟩ => ⟨S500000, .i1⟩
  | .hbm, ⟨70, _⟩ => ⟨S_, .i32⟩
  | .hbm, ⟨71, _⟩ => ⟨S500000, .i32⟩
  | .hbm, ⟨72, _⟩ => ⟨S500000, .i32⟩
  | .hbm, ⟨73, _⟩ => ⟨S500000, .i32⟩
  | .hbm, ⟨74, _⟩ => ⟨S500000x1, .i32⟩
  | .hbm, ⟨75, _⟩ => ⟨S500000x300, .f32⟩
  | .hbm, ⟨76, _⟩ => ⟨S500000x300, .f32⟩
  | .hbm, ⟨77, _⟩ => ⟨S_, .f32⟩
  | .hbm, ⟨78, _⟩ => ⟨S100000x300, .f32⟩
  | .hbm, ⟨79, _⟩ => ⟨S500000x1, .i32⟩
  | .hbm, ⟨80, _⟩ => ⟨S100000x300, .f32⟩
  | .hbm, ⟨81, _⟩ => ⟨S300x600, .f32⟩
  | .hbm, ⟨82, _⟩ => ⟨S100000x600, .f32⟩
  | .hbm, ⟨83, _⟩ => ⟨S1x600, .f32⟩
  | .hbm, ⟨84, _⟩ => ⟨S100000x600, .f32⟩
  | .hbm, ⟨85, _⟩ => ⟨S100000x600, .f32⟩
  | .hbm, ⟨86, _⟩ => ⟨S_, .f32⟩
  | .hbm, ⟨87, _⟩ => ⟨S100000x600, .f32⟩
  | .hbm, ⟨88, _⟩ => ⟨S100000x600, .f32⟩
  | .hbm, ⟨89, _⟩ => ⟨S600x300, .f32⟩
  | .hbm, ⟨90, _⟩ => ⟨S100000x300, .f32⟩
  | .hbm, ⟨91, _⟩ => ⟨S1x300, .f32⟩
  | .hbm, ⟨92, _⟩ => ⟨S100000x300, .f32⟩
  | .hbm, ⟨93, _⟩ => ⟨S100000x300, .f32⟩
  | _, _ => ⟨S100000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_8 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call1_cst : Ref sig .tc := ⟨.hbm, 86, rfl⟩
abbrev main_call1_v0 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩

abbrev nD : Nat := 1
abbrev τ : Topo := Topo.v7x

variable {F : FTy → Type} [FloatOps F]

class Facts₀ : Prop where
  bcast_S_S100000x300 : S_.BroadcastsInDim S100000x300 (![] : Fin 0 → Fin S100000x300.rank)
  transposes_S300x300_S300x300_1_0 : S300x300.Transposes [1, 0] S300x300
  bcast_S_S15000 : S_.BroadcastsInDim S15000 (![] : Fin 0 → Fin S15000.rank)
  bcast_S15000_S15000x1_0 : S15000.BroadcastsInDim S15000x1 (![0] : Fin 1 → Fin S15000x1.rank)
  bcast_S_S15000x300 : S_.BroadcastsInDim S15000x300 (![] : Fin 0 → Fin S15000x300.rank)
  slices_S2x400000_S1x400000_0_0 : S2x400000.Slices ![0, 0] S1x400000
  shapeCasts_S1x400000_S400000 : S1x400000.ShapeCasts S400000
  concatenates_S400000_S100000_S500000_d0 : Shape.Concatenates [S400000, S100000] S500000 0
  slices_S2x400000_S1x400000_1_0 : S2x400000.Slices ![1, 0] S1x400000
  slices_S400000x2_S400000x1_0_0 : S400000x2.Slices ![0, 0] S400000x1
  shapeCasts_S400000x1_S400000 : S400000x1.ShapeCasts S400000
  bcast_S_S100000 : S_.BroadcastsInDim S100000 (![] : Fin 0 → Fin S100000.rank)
  slices_S400000x2_S400000x1_0_1 : S400000x2.Slices ![0, 1] S400000x1
  bcast_S_S500000 : S_.BroadcastsInDim S500000 (![] : Fin 0 → Fin S500000.rank)
  bcast_S500000_S500000x1_0 : S500000.BroadcastsInDim S500000x1 (![0] : Fin 1 → Fin S500000x1.rank)
  transposes_S600x300_S300x600_1_0 : S600x300.Transposes [1, 0] S300x600
  bcast_S600_S1x600_1 : S600.BroadcastsInDim S1x600 (![1] : Fin 1 → Fin S1x600.rank)
  bcast_S1x600_S100000x600_0_1 : S1x600.BroadcastsInDim S100000x600 (![0, 1] : Fin 2 → Fin S100000x600.rank)
  bcast_S_S100000x600 : S_.BroadcastsInDim S100000x600 (![] : Fin 0 → Fin S100000x600.rank)
  transposes_S300x600_S600x300_1_0 : S300x600.Transposes [1, 0] S600x300
  bcast_S300_S1x300_1 : S300.BroadcastsInDim S1x300 (![1] : Fin 1 → Fin S1x300.rank)
  bcast_S1x300_S100000x300_0_1 : S1x300.BroadcastsInDim S100000x300 (![0, 1] : Fin 2 → Fin S100000x300.rank)
  dot_S100000x300_S300x300_S100000x300_1_0_0_1_n_n_wf : DotDims.WF S100000x300 S300x300 S100000x300 [1] [0] [0] [1] [] []
  scatter_S100000x300_S15000x1_S15000x300_1_0_0_1_wf : ScatterDims.WF S100000x300 S15000x1 S15000x300 [1] [0] [0] 1
  gather_S24x300_S500000x1_S500000x300_1_0_n_n_0_1_1300_wf : GatherDims.WF S24x300 S500000x1 S500000x300 [1] [0] [] [0] [] 1 ![1, 300]
  gather_S7x300_S500000x1_S500000x300_1_0_n_n_0_1_1300_wf : GatherDims.WF S7x300 S500000x1 S500000x300 [1] [0] [] [0] [] 1 ![1, 300]
  gather_S100000x300_S500000x1_S500000x300_1_0_n_n_0_1_1300_wf : GatherDims.WF S100000x300 S500000x1 S500000x300 [1] [0] [] [0] [] 1 ![1, 300]
  scatter_S100000x300_S500000x1_S500000x300_1_0_0_1_wf : ScatterDims.WF S100000x300 S500000x1 S500000x300 [1] [0] [0] 1
  dot_S100000x300_S300x600_S100000x600_1_0_0_1_n_n_wf : DotDims.WF S100000x300 S300x600 S100000x600 [1] [0] [0] [1] [] []
  dot_S100000x600_S600x300_S100000x300_1_0_0_1_n_n_wf : DotDims.WF S100000x600 S600x300 S100000x300 [1] [0] [0] [1] [] []

variable [Facts₀]

def dot_S100000x300_S300x300_S100000x300_1_0_0_1_n_n : DotDims S100000x300 S300x300 S100000x300 where
  lhsContracting := [1]
  rhsContracting := [0]
  lhsNonContracting := [0]
  rhsNonContracting := [1]
  lhsBatch := []
  rhsBatch := []
  wf := dot_S100000x300_S300x300_S100000x300_1_0_0_1_n_n_wf
def scatter_S100000x300_S15000x1_S15000x300_1_0_0_1 : ScatterDims S100000x300 S15000x1 S15000x300 where
  updateWindowDims := [1]
  insertedWindowDims := [0]
  scatterDimsToOperandDims := [0]
  indexVectorDim := 1
  wf := scatter_S100000x300_S15000x1_S15000x300_1_0_0_1_wf
def gather_S24x300_S500000x1_S500000x300_1_0_n_n_0_1_1300 : GatherDims S24x300 S500000x1 S500000x300 where
  offsetDims := [1]
  collapsedSliceDims := [0]
  operandBatchingDims := []
  startIndicesBatchingDims := []
  startIndexMap := [0]
  indexVectorDim := 1
  sliceSizes := ![1, 300]
  wf := gather_S24x300_S500000x1_S500000x300_1_0_n_n_0_1_1300_wf
def gather_S7x300_S500000x1_S500000x300_1_0_n_n_0_1_1300 : GatherDims S7x300 S500000x1 S500000x300 where
  offsetDims := [1]
  collapsedSliceDims := [0]
  operandBatchingDims := []
  startIndicesBatchingDims := []
  startIndexMap := [0]
  indexVectorDim := 1
  sliceSizes := ![1, 300]
  wf := gather_S7x300_S500000x1_S500000x300_1_0_n_n_0_1_1300_wf
def gather_S100000x300_S500000x1_S500000x300_1_0_n_n_0_1_1300 : GatherDims S100000x300 S500000x1 S500000x300 where
  offsetDims := [1]
  collapsedSliceDims := [0]
  operandBatchingDims := []
  startIndicesBatchingDims := []
  startIndexMap := [0]
  indexVectorDim := 1
  sliceSizes := ![1, 300]
  wf := gather_S100000x300_S500000x1_S500000x300_1_0_n_n_0_1_1300_wf
def scatter_S100000x300_S500000x1_S500000x300_1_0_0_1 : ScatterDims S100000x300 S500000x1 S500000x300 where
  updateWindowDims := [1]
  insertedWindowDims := [0]
  scatterDimsToOperandDims := [0]
  indexVectorDim := 1
  wf := scatter_S100000x300_S500000x1_S500000x300_1_0_0_1_wf
def dot_S100000x300_S300x600_S100000x600_1_0_0_1_n_n : DotDims S100000x300 S300x600 S100000x600 where
  lhsContracting := [1]
  rhsContracting := [0]
  lhsNonContracting := [0]
  rhsNonContracting := [1]
  lhsBatch := []
  rhsBatch := []
  wf := dot_S100000x300_S300x600_S100000x600_1_0_0_1_n_n_wf
def dot_S100000x600_S600x300_S100000x300_1_0_0_1_n_n : DotDims S100000x600 S600x300 S100000x300 where
  lhsContracting := [1]
  rhsContracting := [0]
  lhsNonContracting := [0]
  rhsNonContracting := [1]
  lhsBatch := []
  rhsBatch := []
  wf := dot_S100000x600_S600x300_S100000x300_1_0_0_1_n_n_wf

class Facts : Prop extends Facts₀ where

variable [Facts]
-- ==== Proof.KernelRun.lean ====
/-
  The kernel program's run with its result named.  The program is two pipelined regions among stretches of host
  operations.  The buffer contents at each boundary are a fold through the program: the host stretch before the first
  region, the first region's write-backs, the host stretch between the regions, the second region's write-backs.  Every
  weakly fair execution terminates with the result buffer at the last fold's contents and the arguments unchanged.
-/
import proofs.«116024_j67645734912700_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the two regions and the host stretches between them, with the result array named: every weakly fair
    execution ends with the result buffer at the contents the second region's write-backs leave, and the arguments as launched. -/
theorem run_named : θ_run defs (onTc (τ := τ) (main (F := F))) ⟨m, fun _ => 0, ρ⟩ (fun r => ∀ c : Dev nD,
      r.2.mem ((c.tc : Thread nD τ).loc main_v65) = W4 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v65 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.Named

end
-- ==== Proof.Spec.lean ====
/-
  The mathematics of the two programs, entry by entry, on the extended reals.

  The activation is x where x > 0 and a * x elsewhere.  The encoder is the activated input times the transposed
  weight: entry (p, q) is the sum over k of act(a, x[p, k]) * W[q, k].  The update network sends a row A[p, :] to
  sum over k of max(sum over d of A[p, d] * W1[k, d] + b1[k], 0) * W2[q, k], plus b2[q].
-/
import Idealize.ShloMosaic.PureOps.Ideal.Laws
import Idealize.ShloMosaic.Lib.ValueIdx

noncomputable section

namespace Cert.Spec

open Idealize.ShloMosaic Idealize.ShloMosaic.ValueIdx

/-- The float zero both programs compare against and clamp at, as the programs spell it. -/
abbrev zero32 : EReal := FloatOps.ofBits (F := Ideal) .f32 0x00000000#32

/-- The one-parameter leaky activation: x where x > 0, a * x elsewhere. -/
def act (a x : EReal) : EReal := Scalar.select (FloatOps.cmpf (F := Ideal) (φ := .f32) .ogt x zero32) x (a * x)

/-- The encoder before masking: entry (p, q) of act(a, x) times the transposed weight. -/
def enc {n : Nat} (a : EReal) (x : (⟨2, ![n, 300]⟩ : Shape).Idx → EReal) (W : (⟨2, ![300, 300]⟩ : Shape).Idx → EReal)
    (p : Fin n) (q : Fin 300) : EReal :=
  ∑ k : Fin 300, act a (x (ix2 p k)) * W (ix2 q k)

/-- The update network on row p of A, at output column q. -/
def upd {n : Nat} (A : (⟨2, ![n, 300]⟩ : Shape).Idx → EReal) (W1 : (⟨2, ![600, 300]⟩ : Shape).Idx → EReal)
    (b1 : (⟨1, ![600]⟩ : Shape).Idx → EReal) (W2 : (⟨2, ![300, 600]⟩ : Shape).Idx → EReal)
    (b2 : (⟨1, ![300]⟩ : Shape).Idx → EReal) (p : Fin n) (q : Fin 300) : EReal :=
  (∑ k : Fin 600, max ((∑ d : Fin 300, A (ix2 p d) * W1 (ix2 k d)) + b1 (ix1 k)) zero32 * W2 (ix2 q k)) + b2 (ix1 q)

end Cert.Spec

end
-- ==== Proof.Mid.lean ====
/-
  The message passing between the two regions, as one function of the hidden node array and the argument arrays:
  every edge (with one self loop per node appended) gathers the hidden row of its source node, adds the two
  embedding rows its attributes select, and the rows are summed into their destination nodes.
-/
import proofs.«116024_j67645734912700_1_alg».proof.KernelIdeal
import proofs.«116024_j67645734912700_1_alg».proof.Proof.Spec

set_option maxRecDepth 8192

noncomputable section

namespace Cert.KernelIdeal.Mid

open Cert.KernelIdeal Cert.KernelIdeal.Facts₀ Cert.KernelIdeal.Facts Idealize.ShloMosaic Idealize.ShloMosaic.ValueIdx Cert.Spec

/-- What the first region's output array ends holding, from the arrays the region finds: the activated input times
    the staged weight, each row times its keep flag. -/
def encMasked (a11 : S1x1.Idx → EReal) (x : S100000x300.Idx → EReal) (wt : S300x300.Idx → EReal)
    (keep : S100000x1.Idx → EReal) : S100000x300.Idx → EReal :=
  fun i => (∑ k : Fin 300, act (a11 (ix2 (0 : Fin 1) (0 : Fin 1))) (x (ix2 (i 0) k)) * wt (ix2 k (i 1))) * keep (ix2 (i 0) (0 : Fin 1))

/-- What the second region's output array ends holding, from the arrays the region finds: the two-layer update of
    each row of the aggregate. -/
def mlp (A : S100000x300.Idx → EReal) (w1 : S300x600.Idx → EReal) (b1 : S1x600.Idx → EReal)
    (w2 : S600x300.Idx → EReal) (b2 : S1x300.Idx → EReal) : S100000x300.Idx → EReal :=
  fun i => (∑ k : Fin 600, max ((∑ d : Fin 300, A (ix2 (i 0) d) * w1 (ix2 d k)) + b1 (ix2 (0 : Fin 1) k)) zero32 * w2 (ix2 k (i 1)))
    + b2 (ix2 (0 : Fin 1) (i 1))

variable {F : FTy → Type} [FloatOps F] [Facts]

/-- The aggregated messages: gather the hidden rows at the edge sources, add the edge embeddings, scatter-add at the
    edge destinations. -/
def aggr (h : (⟨S100000x300, .f32⟩ : BufTy).Contents (Elt F)) (a1 : (⟨S2x400000, .i32⟩ : BufTy).Contents (Elt F))
    (a2 : (⟨S400000x2, .i32⟩ : BufTy).Contents (Elt F)) (a6 : (⟨S24x300, .f32⟩ : BufTy).Contents (Elt F))
    (a7 : (⟨S7x300, .f32⟩ : BufTy).Contents (Elt F)) : (⟨S100000x300, .f32⟩ : BufTy).Contents (Elt F) :=
  Host.scatterAdd scatter_S100000x300_S500000x1_S500000x300_1_0_0_1 (broadcastInDim S100000x300 ![] bcast_S_S100000x300 (constant S_ .f32 0x00000000#32)) (broadcastInDim S500000x1 ![0] bcast_S500000_S500000x1_0 (concatenate S500000 0 [⟨S400000, (shapeCast _ (extractStridedSlice S1x400000 ![1, 0] a1 slices_S2x400000_S1x400000_1_0) shapeCasts_S1x400000_S400000)⟩, ⟨S100000, (iotaInDim S100000 32 0)⟩] concatenates_S400000_S100000_S500000_d0)) (addf (Host.gather gather_S100000x300_S500000x1_S500000x300_1_0_n_n_0_1_1300 h (broadcastInDim S500000x1 ![0] bcast_S500000_S500000x1_0 (select (cmpi .slt (concatenate S500000 0 [⟨S400000, (shapeCast _ (extractStridedSlice S1x400000 ![0, 0] a1 slices_S2x400000_S1x400000_0_0) shapeCasts_S1x400000_S400000)⟩, ⟨S100000, (iotaInDim S100000 32 0)⟩] concatenates_S400000_S100000_S500000_d0) (broadcastInDim S500000 ![] bcast_S_S500000 (constantI S_ 32 0#32))) (addi (concatenate S500000 0 [⟨S400000, (shapeCast _ (extractStridedSlice S1x400000 ![0, 0] a1 slices_S2x400000_S1x400000_0_0) shapeCasts_S1x400000_S400000)⟩, ⟨S100000, (iotaInDim S100000 32 0)⟩] concatenates_S400000_S100000_S500000_d0) (broadcastInDim S500000 ![] bcast_S_S500000 (constantI S_ 32 100000#32))) (concatenate S500000 0 [⟨S400000, (shapeCast _ (extractStridedSlice S1x400000 ![0, 0] a1 slices_S2x400000_S1x400000_0_0) shapeCasts_S1x400000_S400000)⟩, ⟨S100000, (iotaInDim S100000 32 0)⟩] concatenates_S400000_S100000_S500000_d0)))) (addf (Host.gather gather_S24x300_S500000x1_S500000x300_1_0_n_n_0_1_1300 a6 (broadcastInDim S500000x1 ![0] bcast_S500000_S500000x1_0 (select (cmpi .slt (concatenate S500000 0 [⟨S400000, (shapeCast _ (extractStridedSlice S400000x1 ![0, 0] a2 slices_S400000x2_S400000x1_0_0) shapeCasts_S400000x1_S400000)⟩, ⟨S100000, (broadcastInDim S100000 ![] bcast_S_S100000 (constantI S_ 32 4#32))⟩] concatenates_S400000_S100000_S500000_d0) (broadcastInDim S500000 ![] bcast_S_S500000 (constantI S_ 32 0#32))) (addi (concatenate S500000 0 [⟨S400000, (shapeCast _ (extractStridedSlice S400000x1 ![0, 0] a2 slices_S400000x2_S400000x1_0_0) shapeCasts_S400000x1_S400000)⟩, ⟨S100000, (broadcastInDim S100000 ![] bcast_S_S100000 (constantI S_ 32 4#32))⟩] concatenates_S400000_S100000_S500000_d0) (broadcastInDim S500000 ![] bcast_S_S500000 (constantI S_ 32 24#32))) (concatenate S500000 0 [⟨S400000, (shapeCast _ (extractStridedSlice S400000x1 ![0, 0] a2 slices_S400000x2_S400000x1_0_0) shapeCasts_S400000x1_S400000)⟩, ⟨S100000, (broadcastInDim S100000 ![] bcast_S_S100000 (constantI S_ 32 4#32))⟩] concatenates_S400000_S100000_S500000_d0)))) (Host.gather gather_S7x300_S500000x1_S500000x300_1_0_n_n_0_1_1300 a7 (broadcastInDim S500000x1 ![0] bcast_S500000_S500000x1_0 (select (cmpi .slt (concatenate S500000 0 [⟨S400000, (shapeCast _ (extractStridedSlice S400000x1 ![0, 1] a2 slices_S400000x2_S400000x1_0_1) shapeCasts_S400000x1_S400000)⟩, ⟨S100000, (broadcastInDim S100000 ![] bcast_S_S100000 (constantI S_ 32 0#32))⟩] concatenates_S400000_S100000_S500000_d0) (broadcastInDim S500000 ![] bcast_S_S500000 (constantI S_ 32 0#32))) (addi (concatenate S500000 0 [⟨S400000, (shapeCast _ (extractStridedSlice S400000x1 ![0, 1] a2 slices_S400000x2_S400000x1_0_1) shapeCasts_S400000x1_S400000)⟩, ⟨S100000, (broadcastInDim S100000 ![] bcast_S_S100000 (constantI S_ 32 0#32))⟩] concatenates_S400000_S100000_S500000_d0) (broadcastInDim S500000 ![] bcast_S_S500000 (constantI S_ 32 7#32))) (concatenate S500000 0 [⟨S400000, (shapeCast _ (extractStridedSlice S400000x1 ![0, 1] a2 slices_S400000x2_S400000x1_0_1) shapeCasts_S400000x1_S400000)⟩, ⟨S100000, (broadcastInDim S100000 ![] bcast_S_S100000 (constantI S_ 32 0#32))⟩] concatenates_S400000_S100000_S500000_d0))))))

/-- The keep column: ones, with a zero set at every masked node (a negative index counts from the end). -/
def keepCol (a3 : (⟨S15000, .i32⟩ : BufTy).Contents (Elt F)) : (⟨S100000x1, .f32⟩ : BufTy).Contents (Elt F) :=
  Host.scatter scatter_S100000x1_S15000x2_S15000_n_01_01_1 (fun _ b => b) (broadcastInDim S100000x1 ![] bcast_S_S100000x1 (constant S_ .f32 0x3F800000#32)) (concatenate S15000x2 1 [⟨S15000x1, (broadcastInDim S15000x1 ![0] bcast_S15000_S15000x1_0 (select (cmpi .slt a3 (broadcastInDim S15000 ![] bcast_S_S15000 (constantI S_ 32 0#32))) (addi a3 (broadcastInDim S15000 ![] bcast_S_S15000 (constantI S_ 32 100000#32))) a3))⟩, ⟨S15000x1, (broadcastInDim S15000x1 ![0] bcast_S15000_S15000x1_0 (id (broadcastInDim S15000 ![] bcast_S_S15000 (constantI S_ 32 0#32))))⟩] concatenates_S15000x1_S15000x1_S15000x2_d1) (broadcastInDim S15000 ![] bcast_S_S15000 (constant S_ .f32 0x00000000#32))

/-- The encoder weight transposed, in the narrow float format. -/
def wEncT (a5 : (⟨S300x300, .f32⟩ : BufTy).Contents (Elt F)) : (⟨S300x300, .bf16⟩ : BufTy).Contents (Elt F) :=
  truncf .bf16 (transpose S300x300 [1, 0] a5 transposes_S300x300_S300x300_1_0) bitsLt_bf16_f32

/-- The activation's parameter as a 1 x 1 array. -/
def aOne (a4 : (⟨S_, .f32⟩ : BufTy).Contents (Elt F)) : (⟨S1x1, .f32⟩ : BufTy).Contents (Elt F) :=
  shapeCast _ a4 shapeCasts_S_S1x1

/-- The first layer's weight transposed, in the narrow float format. -/
def w1T (a8 : (⟨S600x300, .f32⟩ : BufTy).Contents (Elt F)) : (⟨S300x600, .bf16⟩ : BufTy).Contents (Elt F) :=
  truncf .bf16 (transpose S300x600 [1, 0] a8 transposes_S600x300_S300x600_1_0) bitsLt_bf16_f32

/-- The second layer's weight transposed, in the narrow float format. -/
def w2T (a10 : (⟨S300x600, .f32⟩ : BufTy).Contents (Elt F)) : (⟨S600x300, .bf16⟩ : BufTy).Contents (Elt F) :=
  truncf .bf16 (transpose S600x300 [1, 0] a10 transposes_S300x600_S600x300_1_0) bitsLt_bf16_f32

/-- The first bias as a row. -/
def b1Row (a9 : (⟨S600, .f32⟩ : BufTy).Contents (Elt F)) : (⟨S1x600, .f32⟩ : BufTy).Contents (Elt F) :=
  shapeCast _ a9 shapeCasts_S600_S1x600

/-- The second bias as a row. -/
def b2Row (a11 : (⟨S300, .f32⟩ : BufTy).Contents (Elt F)) : (⟨S1x300, .f32⟩ : BufTy).Contents (Elt F) :=
  shapeCast _ a11 shapeCasts_S300_S1x300

/-- The kernel program's result, from the twelve argument arrays: the update network on the aggregated messages of the
    masked encoder output. -/
def out (a0 : (⟨S100000x300, .f32⟩ : BufTy).Contents (Elt Ideal)) (a1 : (⟨S2x400000, .i32⟩ : BufTy).Contents (Elt Ideal))
    (a2 : (⟨S400000x2, .i32⟩ : BufTy).Contents (Elt Ideal)) (a3 : (⟨S15000, .i32⟩ : BufTy).Contents (Elt Ideal))
    (a4 : (⟨S_, .f32⟩ : BufTy).Contents (Elt Ideal)) (a5 : (⟨S300x300, .f32⟩ : BufTy).Contents (Elt Ideal))
    (a6 : (⟨S24x300, .f32⟩ : BufTy).Contents (Elt Ideal)) (a7 : (⟨S7x300, .f32⟩ : BufTy).Contents (Elt Ideal))
    (a8 : (⟨S600x300, .f32⟩ : BufTy).Contents (Elt Ideal)) (a9 : (⟨S600, .f32⟩ : BufTy).Contents (Elt Ideal))
    (a10 : (⟨S300x600, .f32⟩ : BufTy).Contents (Elt Ideal)) (a11 : (⟨S300, .f32⟩ : BufTy).Contents (Elt Ideal)) :
    (⟨S100000x300, .f32⟩ : BufTy).Contents (Elt Ideal) :=
  mlp (aggr (F := Ideal) (encMasked (aOne (F := Ideal) a4) a0 (wEncT (F := Ideal) a5) (keepCol (F := Ideal) a3)) a1 a2 a6 a7)
    (w1T (F := Ideal) a8) (b1Row (F := Ideal) a9) (w2T (F := Ideal) a10) (b2Row (F := Ideal) a11)

end Cert.KernelIdeal.Mid

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibPlainLists.lean ====
/-
  A record of dimension numbers whose six lists are those of the plain product  [n, K] x [K, w] -> [n, w]  (left
  contracted on axis 1, right on axis 0, the result's axes the left's axis 0 then the right's axis 1, no batch axes)
  has the six index facts of a plain product: one contracted axis of extent K, and the operands read at
  (p, k) and (k, q) for the result's entry (p, q) and contraction position k.
-/
import proofs.«116024_j67645734912700_1_alg».proof.Proof.LibMatmulSum

noncomputable section

namespace Cert.LibMatmulSum

open Idealize.ShloMosaic

theorem Plain.of_lists {n K w : ℕ} (d : DotDims ⟨2, ![n, K]⟩ ⟨2, ![K, w]⟩ ⟨2, ![n, w]⟩)
    (hlc : d.lhsContracting = [1]) (hrc : d.rhsContracting = [0]) (hln : d.lhsNonContracting = [0])
    (hrn : d.rhsNonContracting = [1]) (hlb : d.lhsBatch = []) (hrb : d.rhsBatch = []) : Plain d := by
  have hrank : d.contr.rank = 1 := by rw [d.rank_contr, hlc]; rfl
  have keyI : ∀ (i : (⟨2, ![n, w]⟩ : Shape).Idx) (p q : Nat) (hp : p < 2) (hq : q < 2), p = q → (i ⟨p, hp⟩).val = (i ⟨q, hq⟩).val :=
    fun i p q hp hq h => by subst h; rfl
  have keyK : ∀ (k : d.contr.Idx) (p q : Nat) (hp : p < d.contr.rank) (hq : q < d.contr.rank), p = q → (k ⟨p, hp⟩).val = (k ⟨q, hq⟩).val :=
    fun k p q hp hq h => by subst h; rfl
  refine ⟨hrank, ?_, ?_, ?_, ?_, ?_⟩
  · have h0 : 0 < d.lhsContracting.length := by rw [hlc]; exact Nat.one_pos
    have e : d.lhsContracting[0] = (1 : Fin 2) := by simp [hlc]
    exact (d.size_contr 0 h0).trans (by rw [e]; rfl)
  · intro i q
    unfold DotDims.lhsIdx
    rw [dif_neg (by rw [hlb]; exact List.not_mem_nil), dif_pos (by rw [hln]; exact List.mem_singleton.mpr rfl)]
    simp only [Fin.val_cast]
    exact keyI i _ _ _ _ (by simp [hlb, hln])
  · intro i q
    unfold DotDims.lhsIdx
    rw [dif_neg (by rw [hlb]; exact List.not_mem_nil), dif_neg (by rw [hln]; exact fun h => absurd (show (1 : ℕ) = 0 from congrArg Fin.val (List.mem_singleton.mp h)) Nat.one_ne_zero)]
    simp only [Fin.val_cast]
    exact keyK q _ _ _ _ (by simp [hlc])
  · intro i q
    unfold DotDims.rhsIdx
    rw [dif_neg (by rw [hrb]; exact List.not_mem_nil), dif_neg (by rw [hrn]; exact fun h => absurd (show (0 : ℕ) = 1 from congrArg Fin.val (List.mem_singleton.mp h)) Nat.zero_ne_one)]
    simp only [Fin.val_cast]
    exact keyK q _ _ _ _ (by simp [hrc])
  · intro i q
    unfold DotDims.rhsIdx
    rw [dif_neg (by rw [hrb]; exact List.not_mem_nil), dif_pos (by rw [hrn]; exact List.mem_singleton.mpr rfl)]
    simp only [Fin.val_cast]
    exact keyI i _ _ _ _ (by simp [hlb, hln, hrn])

end Cert.LibMatmulSum

end
-- ==== Proof.LibKeepdims.lean ====
/-
  Two layout facts for a row-wise reduction kept as a column: a vector of length a read as an a × 1 column, and an a × 1
  column repeated along b columns. Both are stated at an explicit index (row p, column c), over any element type.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Pay.lean ====
/-
  The two kernel bodies at the ideal values, read at one entry of the block they store.
  First body: entry (p, q) is (sum over k of act(a, x[p, k]) * w[k, q]) * keep[p, 0], with a the one entry of the
  1 x 1 parameter block.  Second body: entry (p, q) is
  (sum over k of max((sum over d of A[p, d] * w1[d, k]) + b1[0, k], 0) * w2[k, q]) + b2[0, q].
  A change of float format is the identity on the extended reals, and a matrix-unit product into a zero accumulator is
  the plain sum of products.
-/
import proofs.«116024_j67645734912700_1_alg».proof.Proof.Gen.KernelIdeal.Skeleton
import proofs.«116024_j67645734912700_1_alg».proof.Proof.LibPlainLists
import proofs.«116024_j67645734912700_1_alg».proof.Proof.LibKeepdims
import proofs.«116024_j67645734912700_1_alg».proof.Proof.Spec
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx Cert.Spec

/-- The three matrix-unit products of the two bodies are plain products. -/
theorem plain0 : Cert.LibMatmulSum.Plain (n := 2000) (K := 300) (w := 300) dot_S2000x300_S300x300_S2000x300_1_0_0_1_n_n :=
  Cert.LibMatmulSum.Plain.of_lists _ rfl rfl rfl rfl rfl rfl

/-- The first body at entry (p, q) of its block: the activated input row times the weight column, times the row's keep flag. -/
theorem pay0_at (v0 : Vec Ideal S1x1 .f32) (v3 : Vec Ideal S2000x300 .f32) (v10 : Vec Ideal S300x300 .bf16)
    (v13 : Vec Ideal S2000x1 .f32) (p : Fin 2000) (q : Fin 300) :
    k0_pay1 (F := Ideal) v0 v3 v10 v13 (ix2 p q)
      = (∑ k : Fin 300, act (v0 (ix2 (0 : Fin 1) (0 : Fin 1))) (v3 (ix2 p k)) * v10 (ix2 k q)) * v13 (ix2 p (0 : Fin 1)) := by
  unfold k0_pay1
  rw [truncf_apply, mulf_apply, shapeCast_self, shapeCast_self, shapeCast_self, broadcastTo_a1_ab_apply]
  refine congrArg (· * v13 (ix2 p (0 : Fin 1))) ?_
  refine (Cert.LibMatmulSum.matmul_zero_at plain0 (φ₁ := .bf16) (φ₂ := .bf16) none _ _ p q).trans ?_
  refine Finset.sum_congr rfl fun k _ => ?_
  have e : extractAt ![0, 0] v0 inpos_S1x1_p0_0 = v0 (ix2 (0 : Fin 1) (0 : Fin 1)) :=
    congrArg v0 (funext fun a => Fin.ext (by match a with | ⟨0, _⟩ => rfl | ⟨1, _⟩ => rfl))
  rw [truncf_apply, select_apply, cmpf_apply, mulf_apply, broadcast_apply, broadcast_apply, e]
  rfl

theorem plain1 : Cert.LibMatmulSum.Plain (n := 2000) (K := 300) (w := 600) dot_S2000x300_S300x600_S2000x600_1_0_0_1_n_n :=
  Cert.LibMatmulSum.Plain.of_lists _ rfl rfl rfl rfl rfl rfl

theorem plain2 : Cert.LibMatmulSum.Plain (n := 2000) (K := 600) (w := 300) dot_S2000x600_S600x300_S2000x300_1_0_0_1_n_n :=
  Cert.LibMatmulSum.Plain.of_lists _ rfl rfl rfl rfl rfl rfl

/-- The second body at entry (p, q) of its block: the row of the aggregate through the first layer (bias row added,
    clamped at zero) and then through the second layer, plus the second bias row. -/
theorem pay1_at (v0 : Vec Ideal S2000x300 .f32) (v3 : Vec Ideal S300x600 .bf16) (v6 : Vec Ideal S1x600 .f32)
    (v13 : Vec Ideal S600x300 .bf16) (v16 : Vec Ideal S1x300 .f32) (p : Fin 2000) (q : Fin 300) :
    k1_pay1 (F := Ideal) v0 v3 v6 v13 v16 (ix2 p q)
      = (∑ k : Fin 600, max ((∑ d : Fin 300, v0 (ix2 p d) * v3 (ix2 d k)) + v6 (ix2 (0 : Fin 1) k)) zero32 * v13 (ix2 k q))
        + v16 (ix2 (0 : Fin 1) q) := by
  unfold k1_pay1
  simp only [shapeCast_self]
  rw [addf_apply, broadcastTo_1b_ab_apply]
  refine congrArg (· + v16 (ix2 (0 : Fin 1) q)) ?_
  refine (Cert.LibMatmulSum.matmul_zero_at plain2 (φ₁ := .bf16) (φ₂ := .bf16) none _ _ p q).trans ?_
  refine Finset.sum_congr rfl fun k _ => ?_
  rw [truncf_apply, maximumf_apply, addf_apply, broadcastTo_1b_ab_apply, broadcast_apply]
  refine congrArg (fun z => max (z + v6 (ix2 (0 : Fin 1) k)) zero32 * v13 (ix2 k q)) ?_
  exact (Cert.LibMatmulSum.matmul_zero_at plain1 (φ₁ := .bf16) (φ₂ := .bf16) none _ _ p k).trans
    (Finset.sum_congr rfl fun d _ => rfl)

end Cert.KernelIdeal.Pay

end
-- ==== Proof.RegionA.lean ====
/-
  The first region's output array as one function of the arrays the region finds.
  The grid has 50 points; point t stages rows t*2000 … t*2000+1999 of the input and of the keep column, the whole
  1 x 1 parameter and the whole weight, and writes back rows t*2000 … t*2000+1999 of the output.  Entry (r, q) of
  what point t writes is the first body's entry at the staged blocks, which is entry (t*2000 + r, q) of
  (sum over k of act(a, x[n, k]) * w[k, q]) * keep[n, 0].  The 50 row blocks tile the array, so the array ends
  holding that function everywhere.
-/
import proofs.«116024_j67645734912700_1_alg».proof.Proof.Gen.KernelIdeal.Frame
import proofs.«116024_j67645734912700_1_alg».proof.Proof.Pay
import proofs.«116024_j67645734912700_1_alg».proof.Proof.Mid
import Idealize.ShloMosaic.Lib.Pipeline.Value

set_option maxRecDepth 16384

noncomputable section

namespace Cert.KernelIdeal.RegionA

open Cert.KernelIdeal Cert.KernelIdeal.Gen Idealize.ShloMosaic Idealize.ShloMosaic.TcCoe Idealize.SL.Sem
open Idealize.ShloMosaic.ValueIdx Cert.Spec Cert.KernelIdeal.Mid
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row t, the resident ones at block 0. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- One block of the body's result is one row block of `encMasked`, when the staged blocks are the matching row
    blocks of the arrays. -/
theorem block_eq (a11 : S1x1.Idx → EReal) (x : S100000x300.Idx → EReal) (wt : S300x300.Idx → EReal)
    (keep : S100000x1.Idx → EReal)
    (x0 : Vec Ideal S1x1 .f32) (x1 : Vec Ideal S2000x300 .f32) (x2 : Vec Ideal S300x300 .bf16) (x3 : Vec Ideal S2000x1 .f32)
    (j : S2000x300.Idx) (i : S100000x300.Idx)
    (h0 : x0 (ix2 (0 : Fin 1) (0 : Fin 1)) = a11 (ix2 (0 : Fin 1) (0 : Fin 1)))
    (h1 : ∀ k : Fin 300, x1 (ix2 (j 0) k) = x (ix2 (i 0) k))
    (h2 : ∀ k : Fin 300, x2 (ix2 k (j 1)) = wt (ix2 k (i 1)))
    (h3 : x3 (ix2 (j 0) (0 : Fin 1)) = keep (ix2 (i 0) (0 : Fin 1))) :
    k0_pay1 (F := Ideal) x0 x1 x2 x3 j = encMasked a11 x wt keep i := by
  obtain ⟨p, q, rfl⟩ : ∃ (p : Fin 2000) (q : Fin 300), j = ix2 p q := ⟨j 0, j 1, eq_ix2 j⟩
  have h1' : ∀ k : Fin 300, x1 (ix2 p k) = x (ix2 (i 0) k) := h1
  have h2' : ∀ k : Fin 300, x2 (ix2 k q) = wt (ix2 k (i 1)) := h2
  have h3' : x3 (ix2 p (0 : Fin 1)) = keep (ix2 (i 0) (0 : Fin 1)) := h3
  rw [Cert.KernelIdeal.Pay.pay0_at]
  unfold encMasked
  rw [h0, h3']
  refine congrArg (· * keep (ix2 (i 0) (0 : Fin 1))) (Finset.sum_congr rfl fun k _ => ?_)
  rw [h1' k, h2' k]

/-- WHAT POINT t WRITES BACK is block t of `encMasked` of the arrays as the region finds them. -/
theorem flushed_eq (c : Dev nD) (t : Fin cfg0.N) :
    (dat0 V c).flushed 4 t = ((cfg0.win 4).blk t).view.read (Elt Ideal)
      (encMasked (V c main_v15) (V c main_arg0) (V c main_v14) (V c main_v12)) := by
  show (cfg0.win 4).cut (grid0.coords t) ((dat0 V c).after 4 t) = _
  rw [after0_4]
  unfold out0_4
  rw [View.canon_unit_zero hz]
  simp only [View.ld_unit_zero (S := S1x1) hz, View.ld_unit_zero (S := S2000x300) hz, View.ld_unit_zero (S := S300x300) hz,
    View.ld_unit_zero (S := S2000x1) hz]
  obtain ⟨e00, e01, e10, e11, e20, e21, e30, e31, e40, e41⟩ := idx_facts t
  funext j
  refine block_eq (V c main_v15) (V c main_arg0) (V c main_v14) (V c main_v12) (iblk0 V c 0 t) (iblk0 V c 1 t) (iblk0 V c 2 t)
    (iblk0 V c 3 t) j (((cfg0.win 4).blk t).view.emb j) ?_ ?_ ?_ ?_
  · show V c main_v15 (((cfg0.win 0).blk t).view.emb (ix2 (0 : Fin 1) (0 : Fin 1))) = V c main_v15 (ix2 (0 : Fin 1) (0 : Fin 1))
    refine congrArg (V c main_v15) (funext fun a => Fin.ext ?_)
    match a with
    | ⟨0, _⟩ => show win0_0.index t (0 : Fin 2) * 1 + 1 * 0 = 0; omega
    | ⟨1, _⟩ => show win0_0.index t (1 : Fin 2) * 1 + 1 * 0 = 0; omega
  · intro k
    show V c main_arg0 (((cfg0.win 1).blk t).view.emb (ix2 (j 0) k)) = V c main_arg0 (ix2 ((((cfg0.win 4).blk t).view.emb j) 0) k)
    refine congrArg (V c main_arg0) (funext fun a => Fin.ext ?_)
    match a with
    | ⟨0, _⟩ => show win0_1.index t (0 : Fin 2) * 2000 + 1 * (j 0).val = win0_4.index t (0 : Fin 2) * 2000 + 1 * (j 0).val; omega
    | ⟨1, _⟩ => show win0_1.index t (1 : Fin 2) * 300 + 1 * k.val = k.val; omega
  · intro k
    show V c main_v14 (((cfg0.win 2).blk t).view.emb (ix2 k (j 1))) = V c main_v14 (ix2 k ((((cfg0.win 4).blk t).view.emb j) 1))
    refine congrArg (V c main_v14) (funext fun a => Fin.ext ?_)
    match a with
    | ⟨0, _⟩ => show win0_2.index t (0 : Fin 2) * 300 + 1 * k.val = k.val; omega
    | ⟨1, _⟩ => show win0_2.index t (1 : Fin 2) * 300 + 1 * (j 1).val = win0_4.index t (1 : Fin 2) * 300 + 1 * (j 1).val; omega
  · show V c main_v12 (((cfg0.win 3).blk t).view.emb (ix2 (j 0) (0 : Fin 1))) = V c main_v12 (ix2 ((((cfg0.win 4).blk t).view.emb j) 0) (0 : Fin 1))
    refine congrArg (V c main_v12) (funext fun a => Fin.ext ?_)
    match a with
    | ⟨0, _⟩ => show win0_3.index t (0 : Fin 2) * 2000 + 1 * (j 0).val = win0_4.index t (0 : Fin 2) * 2000 + 1 * (j 0).val; omega
    | ⟨1, _⟩ => show win0_3.index t (1 : Fin 2) * 1 + 1 * 0 = 0; omega

/-- An index of the array is in point t's block iff each coordinate is in the block's range on its axis. -/
theorem mem_blk (t : Fin cfg0.N) (i : S100000x300.Idx) :
    i ∈ ((cfg0.win 4).blk t).view.set ↔ ∀ a : Fin 2, win0_4.index t a * S2000x300.size a ≤ (i a).val ∧ (i a).val < win0_4.index t a * S2000x300.size a + S2000x300.size a := by
  show i ∈ ((View.whole main_v16).slice (win0_4.rect t)).set ↔ _
  rw [View.set_slice_whole, Rect.mem_set_unit]
  exact Iff.rfl

/-- Every row of the array is in the block of the point its row number divided by 2000 names. -/
theorem cover (i : S100000x300.Idx) : ∃ t : Fin cfg0.N, (cfg0.win 4).flush t = true ∧ i ∈ ((cfg0.win 4).blk t).view.set := by
  have hN : cfg0.N = 50 := N_0
  have hi0 : (i 0).val < 100000 := (i 0).isLt
  have hi1 : (i 1).val < 300 := (i 1).isLt
  refine ⟨⟨(i 0).val / 2000, by rw [hN]; omega⟩, flush0_4 _, ?_⟩
  rw [mem_blk]
  obtain ⟨e00, e01, e10, e11, e20, e21, e30, e31, e40, e41⟩ := idx_facts ⟨(i 0).val / 2000, by rw [hN]; omega⟩
  intro a
  match a with
  | ⟨0, _⟩ =>
    show win0_4.index _ (0 : Fin 2) * 2000 ≤ (i 0).val ∧ (i 0).val < win0_4.index _ (0 : Fin 2) * 2000 + 2000
    rw [e40]; show (i 0).val / 2000 * 2000 ≤ (i 0).val ∧ (i 0).val < (i 0).val / 2000 * 2000 + 2000; omega
  | ⟨1, _⟩ =>
    show win0_4.index _ (1 : Fin 2) * 300 ≤ (i 1).val ∧ (i 1).val < win0_4.index _ (1 : Fin 2) * 300 + 300
    rw [e41]; omega

/-- THE ARRAY after the region: `encMasked` of the arrays the region finds. -/
theorem final (c : Dev nD) : (dat0 V c).arrAt 4 cfg0.N
    = encMasked (V c main_v15) (V c main_arg0) (V c main_v14) (V c main_v12) :=
  (dat0 V c).arrAt_eq_of_cover 4 _ (fun t _ => flushed_eq V c t) cover

end Cert.KernelIdeal.RegionA

end
-- ==== Proof.RegionB.lean ====
/-
  The second region's output array as one function of the arrays the region finds.
  The grid has 50 points; point t stages rows t*2000 … t*2000+1999 of the aggregate, the two whole weights and the
  two whole bias rows, and writes back rows t*2000 … t*2000+1999 of the output.  Entry (r, q) of what point t writes
  is the second body's entry at the staged blocks, which is entry (t*2000 + r, q) of
  (sum over k of max((sum over d of A[n, d] * w1[d, k]) + b1[0, k], 0) * w2[k, q]) + b2[0, q].
  The 50 row blocks tile the array, so the array ends holding that function everywhere.
-/
import proofs.«116024_j67645734912700_1_alg».proof.Proof.Gen.KernelIdeal.Frame
import proofs.«116024_j67645734912700_1_alg».proof.Proof.Pay
import proofs.«116024_j67645734912700_1_alg».proof.Proof.Mid
import Idealize.ShloMosaic.Lib.Pipeline.Value

set_option maxRecDepth 16384

noncomputable section

namespace Cert.KernelIdeal.RegionB

open Cert.KernelIdeal Cert.KernelIdeal.Gen Idealize.ShloMosaic Idealize.ShloMosaic.TcCoe Idealize.SL.Sem
open Idealize.ShloMosaic.ValueIdx Cert.Spec Cert.KernelIdeal.Mid
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row t, the resident ones at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- One block of the body's result is one row block of `mlp`, when the staged blocks are the matching row block of
    the aggregate and the whole weights and bias rows. -/
theorem block_eq (A : S100000x300.Idx → EReal) (w1 : S300x600.Idx → EReal) (b1 : S1x600.Idx → EReal)
    (w2 : S600x300.Idx → EReal) (b2 : S1x300.Idx → EReal)
    (x0 : Vec Ideal S2000x300 .f32) (x1 : Vec Ideal S300x600 .bf16) (x2 : Vec Ideal S1x600 .f32)
    (x3 : Vec Ideal S600x300 .bf16) (x4 : Vec Ideal S1x300 .f32)
    (j : S2000x300.Idx) (i : S100000x300.Idx)
    (h0 : ∀ d : Fin 300, x0 (ix2 (j 0) d) = A (ix2 (i 0) d))
    (h1 : x1 = w1) (h2 : x2 = b1)
    (h3 : ∀ k : Fin 600, x3 (ix2 k (j 1)) = w2 (ix2 k (i 1)))
    (h4 : x4 (ix2 (0 : Fin 1) (j 1)) = b2 (ix2 (0 : Fin 1) (i 1))) :
    k1_pay1 (F := Ideal) x0 x1 x2 x3 x4 j = mlp A w1 b1 w2 b2 i := by
  obtain ⟨p, q, rfl⟩ : ∃ (p : Fin 2000) (q : Fin 300), j = ix2 p q := ⟨j 0, j 1, eq_ix2 j⟩
  have h0' : ∀ d : Fin 300, x0 (ix2 p d) = A (ix2 (i 0) d) := h0
  have h3' : ∀ k : Fin 600, x3 (ix2 k q) = w2 (ix2 k (i 1)) := h3
  have h4' : x4 (ix2 (0 : Fin 1) q) = b2 (ix2 (0 : Fin 1) (i 1)) := h4
  subst h1 h2
  rw [Cert.KernelIdeal.Pay.pay1_at]
  unfold mlp
  rw [h4']
  refine congrArg (· + b2 (ix2 (0 : Fin 1) (i 1))) (Finset.sum_congr rfl fun k _ => ?_)
  rw [h3' k]
  refine congrArg (fun z => max (z + x2 (ix2 (0 : Fin 1) k)) zero32 * w2 (ix2 k (i 1))) (Finset.sum_congr rfl fun d _ => ?_)
  rw [h0' d]

/-- WHAT POINT t WRITES BACK is block t of `mlp` of the arrays as the region finds them. -/
theorem flushed_eq (c : Dev nD) (t : Fin cfg1.N) :
    (dat1 V c).flushed 5 t = ((cfg1.win 5).blk t).view.read (Elt Ideal)
      (mlp (V c main_v58) (V c main_v60) (V c main_v63) (V c main_v62) (V c main_v64)) := by
  show (cfg1.win 5).cut (grid1.coords t) ((dat1 V c).after 5 t) = _
  rw [after1_5]
  unfold out1_5
  rw [View.canon_unit_zero hz]
  simp only [View.ld_unit_zero (S := S2000x300) hz, View.ld_unit_zero (S := S300x600) hz, View.ld_unit_zero (S := S1x600) hz,
    View.ld_unit_zero (S := S600x300) hz, View.ld_unit_zero (S := S1x300) hz]
  obtain ⟨e00, e01, e10, e11, e20, e21, e30, e31, e40, e41, e50, e51⟩ := idx_facts t
  funext j
  refine block_eq (V c main_v58) (V c main_v60) (V c main_v63) (V c main_v62) (V c main_v64) (iblk1 V c 0 t) (iblk1 V c 1 t)
    (iblk1 V c 2 t) (iblk1 V c 3 t) (iblk1 V c 4 t) j (((cfg1.win 5).blk t).view.emb j) ?_ ?_ ?_ ?_ ?_
  · intro d
    show V c main_v58 (((cfg1.win 0).blk t).view.emb (ix2 (j 0) d)) = V c main_v58 (ix2 ((((cfg1.win 5).blk t).view.emb j) 0) d)
    refine congrArg (V c main_v58) (funext fun a => Fin.ext ?_)
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 300 + 1 * d.val = d.val; omega
  · funext y
    show V c main_v60 (((cfg1.win 1).blk t).view.emb y) = V c main_v60 y
    refine congrArg (V c main_v60) (funext fun a => Fin.ext ?_)
    match a with
    | ⟨0, _⟩ => show win1_1.index t (0 : Fin 2) * 300 + 1 * (y 0).val = (y 0).val; omega
    | ⟨1, _⟩ => show win1_1.index t (1 : Fin 2) * 600 + 1 * (y 1).val = (y 1).val; omega
  · funext y
    show V c main_v63 (((cfg1.win 2).blk t).view.emb y) = V c main_v63 y
    refine congrArg (V c main_v63) (funext fun a => Fin.ext ?_)
    match a with
    | ⟨0, _⟩ => show win1_2.index t (0 : Fin 2) * 1 + 1 * (y 0).val = (y 0).val; omega
    | ⟨1, _⟩ => show win1_2.index t (1 : Fin 2) * 600 + 1 * (y 1).val = (y 1).val; omega
  · intro k
    show V c main_v62 (((cfg1.win 3).blk t).view.emb (ix2 k (j 1))) = V c main_v62 (ix2 k ((((cfg1.win 5).blk t).view.emb j) 1))
    refine congrArg (V c main_v62) (funext fun a => Fin.ext ?_)
    match a with
    | ⟨0, _⟩ => show win1_3.index t (0 : Fin 2) * 600 + 1 * k.val = k.val; omega
    | ⟨1, _⟩ => show win1_3.index t (1 : Fin 2) * 300 + 1 * (j 1).val = win1_5.index t (1 : Fin 2) * 300 + 1 * (j 1).val; omega
  · show V c main_v64 (((cfg1.win 4).blk t).view.emb (ix2 (0 : Fin 1) (j 1))) = V c main_v64 (ix2 (0 : Fin 1) ((((cfg1.win 5).blk t).view.emb j) 1))
    refine congrArg (V c main_v64) (funext fun a => Fin.ext ?_)
    match a with
    | ⟨0, _⟩ => show win1_4.index t (0 : Fin 2) * 1 + 1 * 0 = 0; omega
    | ⟨1, _⟩ => show win1_4.index t (1 : Fin 2) * 300 + 1 * (j 1).val = win1_5.index t (1 : Fin 2) * 300 + 1 * (j 1).val; omega

/-- An index of the array is in point t's block iff each coordinate is in the block's range on its axis. -/
theorem mem_blk (t : Fin cfg1.N) (i : S100000x300.Idx) :
    i ∈ ((cfg1.win 5).blk t).view.set ↔ ∀ a : Fin 2, win1_5.index t a * S2000x300.size a ≤ (i a).val ∧ (i a).val < win1_5.index t a * S2000x300.size a + S2000x300.size a := by
  show i ∈ ((View.whole main_v65).slice (win1_5.rect t)).set ↔ _
  rw [View.set_slice_whole, Rect.mem_set_unit]
  exact Iff.rfl

/-- Every row of the array is in the block of the point its row number divided by 2000 names. -/
theorem cover (i : S100000x300.Idx) : ∃ t : Fin cfg1.N, (cfg1.win 5).flush t = true ∧ i ∈ ((cfg1.win 5).blk t).view.set := by
  have hN : cfg1.N = 50 := N_1
  have hi0 : (i 0).val < 100000 := (i 0).isLt
  have hi1 : (i 1).val < 300 := (i 1).isLt
  refine ⟨⟨(i 0).val / 2000, by rw [hN]; omega⟩, flush1_5 _, ?_⟩
  rw [mem_blk]
  obtain ⟨e00, e01, e10, e11, e20, e21, e30, e31, e40, e41, e50, e51⟩ := idx_facts ⟨(i 0).val / 2000, by rw [hN]; omega⟩
  intro a
  match a with
  | ⟨0, _⟩ =>
    show win1_5.index _ (0 : Fin 2) * 2000 ≤ (i 0).val ∧ (i 0).val < win1_5.index _ (0 : Fin 2) * 2000 + 2000
    rw [e50]; show (i 0).val / 2000 * 2000 ≤ (i 0).val ∧ (i 0).val < (i 0).val / 2000 * 2000 + 2000; omega
  | ⟨1, _⟩ =>
    show win1_5.index _ (1 : Fin 2) * 300 ≤ (i 1).val ∧ (i 1).val < win1_5.index _ (1 : Fin 2) * 300 + 300
    rw [e51]; omega

/-- THE ARRAY after the region: `mlp` of the arrays the region finds. -/
theorem final (c : Dev nD) : (dat1 V c).arrAt 5 cfg1.N
    = mlp (V c main_v58) (V c main_v60) (V c main_v63) (V c main_v62) (V c main_v64) :=
  (dat1 V c).arrAt_eq_of_cover 5 _ (fun t _ => flushed_eq V c t) cover

end Cert.KernelIdeal.RegionB

end
-- ==== Proof.Host.lean ====
/-
  The host stretches of the kernel program, read.  Before the first region the program builds the keep column, the
  transposed encoder weight and the 1 x 1 parameter; between the regions it builds the aggregated messages from the
  first region's output, the two transposed layer weights and the two bias rows.  No host operation and no region
  writes an argument, so the arguments read at any boundary are the launch contents.  Putting the two regions'
  closed forms between the stretches, the result array is one function of the twelve arguments.
-/
import proofs.«116024_j67645734912700_1_alg».proof.Proof.Gen.KernelIdeal.Frame
import proofs.«116024_j67645734912700_1_alg».proof.Proof.Mid
import proofs.«116024_j67645734912700_1_alg».proof.Proof.RegionA
import proofs.«116024_j67645734912700_1_alg».proof.Proof.RegionB
import Idealize.ShloMosaic.Lib.StableHlo.Run

set_option maxRecDepth 16384

noncomputable section

namespace Cert.KernelIdeal.Host

open Cert.KernelIdeal Cert.KernelIdeal.Gen Cert.KernelIdeal.Mid Idealize.ShloMosaic Idealize.ShloMosaic.TcCoe Idealize.SL.Sem
open Idealize.ShloMosaic.StableHlo

variable (m : (ℓ : Loc nD τ sig) → Buf (Elt Ideal) ℓ) (ρ : Dev nD → PrngReg)

/-! ## The arguments at the boundaries -/

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
theorem W2_main_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl
theorem W2_main_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl
theorem W2_main_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl
theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W1_main_arg4 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W1_main_arg5 (c : Dev nD) : W1 m ρ c (Proc.devRef .tc main_arg5) = m ((c : Thread nD τ).loc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The first stretch -/

theorem V1_v15 (c : Dev nD) : (V1 m ρ c main_v15 : S1x1.Idx → EReal) = aOne (F := Ideal) (m ((c : Thread nD τ).loc main_arg4)) := by
  show StableHlo.after hostOps0 (W0 m ρ c) (Proc.devRef .tc main_v15) = _
  after_results
  rfl

theorem V1_v14 (c : Dev nD) : (V1 m ρ c main_v14 : S300x300.Idx → EReal) = wEncT (F := Ideal) (m ((c : Thread nD τ).loc main_arg5)) := by
  show StableHlo.after hostOps0 (W0 m ρ c) (Proc.devRef .tc main_v14) = _
  after_results
  rfl

theorem V1_v12 (c : Dev nD) : (V1 m ρ c main_v12 : S100000x1.Idx → EReal) = keepCol (F := Ideal) (m ((c : Thread nD τ).loc main_arg3)) := by
  show StableHlo.after hostOps0 (W0 m ρ c) (Proc.devRef .tc main_v12) = _
  after_results
  rfl

theorem V1_arg0 (c : Dev nD) : (V1 m ρ c main_arg0 : S100000x300.Idx → EReal) = m ((c : Thread nD τ).loc main_arg0) :=
  W1_main_arg0 m ρ c

/-! ## The second stretch -/

set_option maxHeartbeats 32000000 in
theorem V3_v58 (c : Dev nD) : (V3 m ρ c main_v58 : S100000x300.Idx → EReal)
    = aggr (F := Ideal) (W2 m ρ c (Proc.devRef .tc main_v16)) (W2 m ρ c (Proc.devRef .tc main_arg1))
        (W2 m ρ c (Proc.devRef .tc main_arg2)) (W2 m ρ c (Proc.devRef .tc main_arg6)) (W2 m ρ c (Proc.devRef .tc main_arg7)) := by
  show StableHlo.after hostOps1 (W2 m ρ c) (Proc.devRef .tc main_v58) = _
  after_results_simp <;> rfl

set_option maxHeartbeats 32000000 in
theorem V3_v60 (c : Dev nD) : (V3 m ρ c main_v60 : S300x600.Idx → EReal) = w1T (F := Ideal) (W2 m ρ c (Proc.devRef .tc main_arg8)) := by
  show StableHlo.after hostOps1 (W2 m ρ c) (Proc.devRef .tc main_v60) = _
  after_results_simp <;> rfl

set_option maxHeartbeats 32000000 in
theorem V3_v62 (c : Dev nD) : (V3 m ρ c main_v62 : S600x300.Idx → EReal) = w2T (F := Ideal) (W2 m ρ c (Proc.devRef .tc main_arg10)) := by
  show StableHlo.after hostOps1 (W2 m ρ c) (Proc.devRef .tc main_v62) = _
  after_results_simp <;> rfl

set_option maxHeartbeats 32000000 in
theorem V3_v63 (c : Dev nD) : (V3 m ρ c main_v63 : S1x600.Idx → EReal) = b1Row (F := Ideal) (W2 m ρ c (Proc.devRef .tc main_arg9)) := by
  show StableHlo.after hostOps1 (W2 m ρ c) (Proc.devRef .tc main_v63) = _
  after_results_simp <;> rfl

set_option maxHeartbeats 32000000 in
theorem V3_v64 (c : Dev nD) : (V3 m ρ c main_v64 : S1x300.Idx → EReal) = b2Row (F := Ideal) (W2 m ρ c (Proc.devRef .tc main_arg11)) := by
  show StableHlo.after hostOps1 (W2 m ρ c) (Proc.devRef .tc main_v64) = _
  after_results_simp <;> rfl

/-! ## The result array as one function of the arguments -/

/-- The first region's output array, from the arguments. -/
theorem W2_v16 (c : Dev nD) : (W2 m ρ c (Proc.devRef .tc main_v16) : S100000x300.Idx → EReal)
    = encMasked (aOne (F := Ideal) (m ((c : Thread nD τ).loc main_arg4))) (m ((c : Thread nD τ).loc main_arg0))
        (wEncT (F := Ideal) (m ((c : Thread nD τ).loc main_arg5))) (keepCol (F := Ideal) (m ((c : Thread nD τ).loc main_arg3))) := by
  refine (W2_arr m ρ c 4).trans ?_
  rw [Cert.KernelIdeal.RegionA.final (V1 m ρ) c, V1_v15, V1_v14, V1_v12, V1_arg0]

/-- THE RESULT ARRAY after the run is `out` of the arguments. -/
theorem W4_v65 (c : Dev nD) : (W4 m ρ c (Proc.devRef .tc main_v65) : S100000x300.Idx → EReal)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  refine (W4_arr m ρ c 5).trans ?_
  rw [Cert.KernelIdeal.RegionB.final (V3 m ρ) c, V3_v58, V3_v60, V3_v62, V3_v63, V3_v64, W2_v16, W2_main_arg1, W2_main_arg2,
    W2_main_arg6, W2_main_arg7, W2_main_arg8, W2_main_arg9, W2_main_arg10, W2_main_arg11]
  rfl

end Cert.KernelIdeal.Host

end
-- ==== Proof.LibScatterSet.lean ====
/-
  A host scatter whose body returns the update ("set"), read at one index of the operand.
  The scatter is a left fold over the update indices, each step overwriting the element its update lands on.  Read at a
  fixed operand index i, the fold ends at a value a as soon as every update landing on i carries a, and either the operand
  holds a at i or some update lands on i.  In particular: where no update lands the operand's element survives, and where
  the landing updates agree the result is their common value.
-/
import Idealize.ShloMosaic.PureOps.ShapeOps
import Idealize.ShloMosaic.Lib.ValueIdx

namespace Cert.LibScatterSet

open Idealize.ShloMosaic

/-- A left fold of steps that, read at `i`, overwrite with `v n` exactly when `g n = some i`: it ends at `a` when every
    hit carries `a` and the start holds `a` at `i` or the list has a hit. -/
theorem foldl_set_apply {ι I α : Type} (step : (I → α) → ι → (I → α)) (g : ι → Option I) (v : ι → α) (i : I)
    (hhit : ∀ r n, g n = some i → step r n i = v n) (hmiss : ∀ r n, g n ≠ some i → step r n i = r i)
    (a : α) (l : List ι) (x : I → α) (hv : ∀ n ∈ l, g n = some i → v n = a)
    (hx : x i = a ∨ ∃ n ∈ l, g n = some i) : (l.foldl step x) i = a := by
  induction l generalizing x with
  | nil =>
    rcases hx with h | ⟨n, hn, _⟩
    · exact h
    · cases hn
  | cons n l ih =>
    rw [List.foldl_cons]
    refine ih (step x n) (fun n' hn' => hv n' (List.mem_cons_of_mem _ hn')) ?_
    by_cases hg : g n = some i
    · left; rw [hhit x n hg]; exact hv n List.mem_cons_self hg
    · rcases hx with h | ⟨n', hn', hg'⟩
      · left; rw [hmiss x n hg]; exact h
      · rcases List.mem_cons.1 hn' with rfl | h'
        · exact absurd hg' hg
        · right; exact ⟨n', h', hg'⟩

/-- A "set" scatter at operand index `i` is `a` when every update landing on `i` carries `a`, and the operand holds
    `a` there or some update lands there. -/
theorem scatter_set_apply {α : Type} {s si u : Shape} {w : ℕ} (d : ScatterDims s si u) (x : s.Idx → α) (idx : IVec si w)
    (upd : u.Idx → α) (i : s.Idx) (a : α) (hv : ∀ j, d.resultIdx? j idx = some i → upd j = a)
    (hx : x i = a ∨ ∃ j, d.resultIdx? j idx = some i) :
    Host.scatter d (fun _ b => b) x idx upd i = a := by
  unfold Host.scatter
  refine foldl_set_apply _ (fun n => d.resultIdx? (u.rowMajor.symm n) idx) (fun n => upd (u.rowMajor.symm n)) i ?_ ?_ a _ x
    (fun n _ => hv _) ?_
  · intro r n hg
    simp only [hg, if_true]
  · intro r n hg
    cases h : d.resultIdx? (u.rowMajor.symm n) idx with
    | none => rfl
    | some i0 =>
      have hne : i ≠ i0 := fun e => hg (by rw [h, e])
      simp only [if_neg hne]
  · rcases hx with h | ⟨j, hj⟩
    · exact Or.inl h
    · exact Or.inr ⟨u.rowMajor j, List.mem_finRange _, by rw [Equiv.symm_apply_apply]; exact hj⟩

end Cert.LibScatterSet
-- ==== Proof.LibScatterRows.lean ====
/-
  A scatter-add of ROWS, read at an entry. The operand is [N, C] (or [N]); update row e carries one scalar
  index idx[e, 0], read as a signed integer, and is added to operand row idx[e, 0] when that is a row of the
  operand (0 ≤ idx[e, 0] < N) and dropped otherwise. So entry (n, c) of the result is the operand's entry plus
  the sum over all update rows e of: the update's entry (e, c) if idx[e, 0] = n, else 0. The proof reads the
  dimension numbers once — where update index (e, c) lands — and then collapses the sum over update indices
  to the sum over update rows; nothing depends on the sizes N, C, E.
  Then: three arrays joined along the columns, read at a column of each piece.
-/
import Idealize.ShloMosaic.PureOps.Ideal.Laws
import Idealize.ShloMosaic.Lib.ValueIdx
import Idealize.ShloMosaic.Lib.Pipeline.Value
import Idealize.ShloMosaic.Lib.ValueLayout

noncomputable section
open scoped BigOperators
namespace Cert.Val
open Idealize.ShloMosaic Idealize.ShloMosaic.ValueIdx

/-! ## Rows of a rank-2 operand -/

/-- The dimension numbers of a row scatter: operand [N, C], indices [E, 1] with the index vector on axis 1 (one
    scalar per update row) naming operand axis 0, updates [E, C] whose axis 1 is the window (a whole row). -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N C E w : Nat} (wf : ScatterDims.WF ⟨2, ![N, C]⟩ ⟨2, ![E, 1]⟩ ⟨2, ![E, C]⟩ [1] [0] [0] 1)

/-- On the row axis the window of update (e, c) starts at the index idx[e, 0], read signed. -/
theorem rowDims_start_zero (e : Fin E) (c : Fin C) (idx : IVec ⟨2, ![E, 1]⟩ w) :
    (rowDims N C E wf).start (ix2 e c) idx 0 = (idx (ix2 e (0 : Fin 1))).toInt := by
  unfold ScatterDims.start
  rw [dif_pos (show (0 : Fin 2) ∈ (rowDims N C E wf).scatterDimsToOperandDims from List.mem_singleton.mpr rfl)]
  have hsi : (rowDims N C E wf).siIdx (ix2 e c) ⟨List.idxOf (0 : Fin 2) (rowDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0. -/
theorem rowDims_start_one (e : Fin E) (c : Fin C) (idx : IVec ⟨2, ![E, 1]⟩ w) :
    (rowDims N C E wf).start (ix2 e c) idx 1 = 0 := rfl

/-- The row axis is inserted: no window coordinate there. -/
theorem rowDims_window_zero (e : Fin E) (c : Fin C) :
    (rowDims N C E wf).window (ix2 e c) 0 = 0 := rfl

/-- On the column axis the window coordinate is the update's column. -/
theorem rowDims_window_one (e : Fin E) (c : Fin C) :
    (rowDims N C E wf).window (ix2 e c) 1 = c.val := rfl

/-- WHERE AN UPDATE LANDS: update (e, c) lands at operand entry (n, c') exactly when its row's index is n and
    the columns agree (an index outside [0, N) lands nowhere). -/
theorem rowDims_resultIdx?_eq_some_iff (e : Fin E) (c : Fin C) (n : Fin N) (c' : Fin C) (idx : IVec ⟨2, ![E, 1]⟩ w) :
    (rowDims N C E wf).resultIdx? (ix2 e c) idx = some (ix2 n c') ↔
      ((idx (ix2 e (0 : Fin 1))).toInt = (n.val : Int) ∧ c = c') := by
  have hs0 := rowDims_start_zero wf e c idx
  have hs1 := rowDims_start_one wf e c idx
  have hw0 := rowDims_window_zero wf e c
  have hw1 := rowDims_window_one wf e c
  generalize (idx (ix2 e (0 : Fin 1))).toInt = v at hs0 ⊢
  unfold ScatterDims.resultIdx?
  split
  · next h =>
    have h0 := h 0
    rw [hs0, hw0] at h0
    rw [Option.some.injEq]
    constructor
    · intro hf
      have f0 := congrArg Fin.val (congrFun hf 0)
      have f1 := congrArg Fin.val (congrFun hf 1)
      simp only [hs0, hw0, hs1, hw1] at f0 f1
      refine ⟨?_, Fin.ext ?_⟩
      · change (v + ((0 : Nat) : Int)).toNat = n.val at f0
        omega
      · change (((0 : Int) + (c.val : Int))).toNat = c'.val at f1
        omega
    · rintro ⟨hv, rfl⟩
      funext a
      refine Fin.ext ?_
      match a with
      | ⟨0, _⟩ =>
        show ((rowDims N C E wf).start (ix2 e c) idx 0 + ((rowDims N C E wf).window (ix2 e c) 0 : Int)).toNat = n.val
        rw [hs0, hw0]; omega
      | ⟨1, _⟩ =>
        show ((rowDims N C E wf).start (ix2 e c) idx 1 + ((rowDims N C E wf).window (ix2 e c) 1 : Int)).toNat = c.val
        rw [hs1, hw1]; omega
  · next h =>
    constructor
    · intro hf; exact absurd hf (by simp)
    · rintro ⟨hv, rfl⟩
      exfalso; apply h
      intro a
      match a with
      | ⟨0, _⟩ =>
        show 0 ≤ (rowDims N C E wf).start (ix2 e c) idx 0 + ((rowDims N C E wf).window (ix2 e c) 0 : Int) ∧
          (rowDims N C E wf).start (ix2 e c) idx 0 + ((rowDims N C E wf).window (ix2 e c) 0 : Int) < (N : Int)
        rw [hs0, hw0]; have := n.isLt; omega
      | ⟨1, _⟩ =>
        show 0 ≤ (rowDims N C E wf).start (ix2 e c) idx 1 + ((rowDims N C E wf).window (ix2 e c) 1 : Int) ∧
          (rowDims N C E wf).start (ix2 e c) idx 1 + ((rowDims N C E wf).window (ix2 e c) 1 : Int) < (C : Int)
        rw [hs1, hw1]; have := c.isLt; omega

/-- THE ROW SCATTER-ADD AT AN ENTRY: the operand's entry plus, over the update rows whose index is the entry's
    row, the update's entry in the same column. -/
theorem scatterAdd_rows_apply {φ : FTy} (x : FVec Ideal ⟨2, ![N, C]⟩ φ) (idx : IVec ⟨2, ![E, 1]⟩ w)
    (upd : FVec Ideal ⟨2, ![E, C]⟩ φ) (n : Fin N) (c : Fin C) :
    Host.scatterAdd (F := Ideal) (rowDims N C E wf) x idx upd (ix2 n c) =
      x (ix2 n c) + ∑ e : Fin E, if (idx (ix2 e (0 : Fin 1))).toInt = (n.val : Int) then upd (ix2 e c) else 0 := by
  show x (ix2 n c) + ∑ j ∈ Finset.univ.filter (fun j => (rowDims N C E wf).resultIdx? j idx = some (ix2 n c)), upd j = _
  congr 1
  rw [Finset.sum_filter, sum_idx2]
  refine Finset.sum_congr rfl fun e _ => ?_
  simp only [rowDims_resultIdx?_eq_some_iff]
  by_cases hv : (idx (ix2 e (0 : Fin 1))).toInt = (n.val : Int)
  · simp only [hv, true_and, if_true]
    rw [Finset.sum_ite_eq' Finset.univ c]
    simp
  · simp only [hv, false_and, if_false]
    exact Finset.sum_const_zero

/-! ## The same for a rank-1 operand: one scalar update per index -/

/-- The dimension numbers of a scatter of scalars: operand [N], indices [E, 1], updates [E] (no window axis). -/
abbrev rowDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf1 : ScatterDims.WF ⟨1, ![N]⟩ ⟨2, ![E, 1]⟩ ⟨1, ![E]⟩ [] [0] [0] 1)

/-- The window of update e starts at the index idx[e, 0], read signed. -/
theorem rowDims1_start_zero (e : Fin E) (idx : IVec ⟨2, ![E, 1]⟩ w) :
    (rowDims1 N E wf1).start (ix1 e) idx 0 = (idx (ix2 e (0 : Fin 1))).toInt := by
  unfold ScatterDims.start
  rw [dif_pos (show (0 : Fin 1) ∈ (rowDims1 N E wf1).scatterDimsToOperandDims from List.mem_singleton.mpr rfl)]
  have hsi : (rowDims1 N E wf1).siIdx (ix1 e) ⟨List.idxOf (0 : Fin 1) (rowDims1 N E wf1).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: no window coordinate. -/
theorem rowDims1_window_zero (e : Fin E) : (rowDims1 N E wf1).window (ix1 e) 0 = 0 := rfl

/-- Update e lands at operand entry n exactly when its index is n. -/
theorem rowDims1_resultIdx?_eq_some_iff (e : Fin E) (n : Fin N) (idx : IVec ⟨2, ![E, 1]⟩ w) :
    (rowDims1 N E wf1).resultIdx? (ix1 e) idx = some (ix1 n) ↔ (idx (ix2 e (0 : Fin 1))).toInt = (n.val : Int) := by
  have hs0 := rowDims1_start_zero wf1 e idx
  have hw0 := rowDims1_window_zero wf1 e
  generalize (idx (ix2 e (0 : Fin 1))).toInt = v at hs0 ⊢
  unfold ScatterDims.resultIdx?
  split
  · next h =>
    have h0 := h 0
    rw [hs0, hw0] at h0
    rw [Option.some.injEq]
    constructor
    · intro hf
      have f0 := congrArg Fin.val (congrFun hf 0)
      simp only [hs0, hw0] at f0
      change (v + ((0 : Nat) : Int)).toNat = n.val at f0
      omega
    · intro hv
      funext a
      refine Fin.ext ?_
      match a with
      | ⟨0, _⟩ =>
        show ((rowDims1 N E wf1).start (ix1 e) idx 0 + ((rowDims1 N E wf1).window (ix1 e) 0 : Int)).toNat = n.val
        rw [hs0, hw0]; omega
  · next h =>
    constructor
    · intro hf; exact absurd hf (by simp)
    · intro hv
      exfalso; apply h
      intro a
      match a with
      | ⟨0, _⟩ =>
        show 0 ≤ (rowDims1 N E wf1).start (ix1 e) idx 0 + ((rowDims1 N E wf1).window (ix1 e) 0 : Int) ∧
          (rowDims1 N E wf1).start (ix1 e) idx 0 + ((rowDims1 N E wf1).window (ix1 e) 0 : Int) < (N : Int)
        rw [hs0, hw0]; have := n.isLt; omega

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  refine (Fintype.sum_equiv (⟨fun i => i 0, fun a => ix1 a, fun i => (eq_ix1 i).symm, fun _ => rfl⟩ :
    (⟨1, ![n]⟩ : Shape).Idx ≃ Fin n) _ _ fun i => ?_)
  exact congrArg f (eq_ix1 i)

/-- THE SCALAR SCATTER-ADD AT AN ENTRY: the operand's entry plus the updates whose index is the entry. -/
theorem scatterAdd_rows1_apply {φ : FTy} (x : FVec Ideal ⟨1, ![N]⟩ φ) (idx : IVec ⟨2, ![E, 1]⟩ w)
    (upd : FVec Ideal ⟨1, ![E]⟩ φ) (n : Fin N) :
    Host.scatterAdd (F := Ideal) (rowDims1 N E wf1) x idx upd (ix1 n) =
      x (ix1 n) + ∑ e : Fin E, if (idx (ix2 e (0 : Fin 1))).toInt = (n.val : Int) then upd (ix1 e) else 0 := by
  show x (ix1 n) + ∑ j ∈ Finset.univ.filter (fun j => (rowDims1 N E wf1).resultIdx? j idx = some (ix1 n)), upd j = _
  congr 1
  rw [Finset.sum_filter, sum_idx1]
  refine Finset.sum_congr rfl fun e _ => ?_
  simp only [rowDims1_resultIdx?_eq_some_iff]

/-! ## Three arrays joined along the columns, read at a column of each -/

section Concat3
variable {α : Type} {R a b c t : Nat}
  (x₁ : (⟨2, ![R, a]⟩ : Shape).Idx → α) (x₂ : (⟨2, ![R, b]⟩ : Shape).Idx → α) (x₃ : (⟨2, ![R, c]⟩ : Shape).Idx → α)
  (h : Shape.Concatenates [⟨2, ![R, a]⟩, ⟨2, ![R, b]⟩, ⟨2, ![R, c]⟩] ⟨2, ![R, t]⟩ 1)

/-- A column of the first piece. -/
theorem concat3_cols_first (r : Fin R) (q : Fin a) (hq : q.val < t) :
    concatenate ⟨2, ![R, t]⟩ 1 [⟨⟨2, ![R, a]⟩, x₁⟩, ⟨⟨2, ![R, b]⟩, x₂⟩, ⟨⟨2, ![R, c]⟩, x₃⟩] h (ix2 r ⟨q.val, hq⟩) = x₁ (ix2 r q) :=
  concatenate_apply_piece 1 [⟨⟨2, ![R, a]⟩, x₁⟩, ⟨⟨2, ![R, b]⟩, x₂⟩, ⟨⟨2, ![R, c]⟩, x₃⟩] h (ix2 r ⟨q.val, hq⟩)
    0 (by simp) ⟨2, ![R, a]⟩ x₁ rfl rfl 0 rfl (ix2 r q)
    (fun ax hax => match ax with
      | ⟨0, _⟩ => rfl
      | ⟨1, _⟩ => absurd rfl hax)
    (by show 0 + q.val = q.val; omega)

/-- A column of the second piece: the first piece's width further on. -/
theorem concat3_cols_second (r : Fin R) (q : Fin b) (hq : a + q.val < t) :
    concatenate ⟨2, ![R, t]⟩ 1 [⟨⟨2, ![R, a]⟩, x₁⟩, ⟨⟨2, ![R, b]⟩, x₂⟩, ⟨⟨2, ![R, c]⟩, x₃⟩] h (ix2 r ⟨a + q.val, hq⟩) = x₂ (ix2 r q) :=
  concatenate_apply_piece 1 [⟨⟨2, ![R, a]⟩, x₁⟩, ⟨⟨2, ![R, b]⟩, x₂⟩, ⟨⟨2, ![R, c]⟩, x₃⟩] h (ix2 r ⟨a + q.val, hq⟩)
    1 (by simp) ⟨2, ![R, b]⟩ x₂ rfl rfl a (by simp) (ix2 r q)
    (fun ax hax => match ax with
      | ⟨0, _⟩ => rfl
      | ⟨1, _⟩ => absurd rfl hax)
    rfl

/-- A column of the third piece: the first two pieces' widths further on. -/
theorem concat3_cols_third (r : Fin R) (q : Fin c) (hq : a + b + q.val < t) :
    concatenate ⟨2, ![R, t]⟩ 1 [⟨⟨2, ![R, a]⟩, x₁⟩, ⟨⟨2, ![R, b]⟩, x₂⟩, ⟨⟨2, ![R, c]⟩, x₃⟩] h (ix2 r ⟨a + b + q.val, hq⟩) = x₃ (ix2 r q) :=
  concatenate_apply_piece 1 [⟨⟨2, ![R, a]⟩, x₁⟩, ⟨⟨2, ![R, b]⟩, x₂⟩, ⟨⟨2, ![R, c]⟩, x₃⟩] h (ix2 r ⟨a + b + q.val, hq⟩)
    2 (by simp) ⟨2, ![R, c]⟩ x₃ rfl rfl (a + b) (by simp) (ix2 r q)
    (fun ax hax => match ax with
      | ⟨0, _⟩ => rfl
      | ⟨1, _⟩ => absurd rfl hax)
    rfl

end Concat3

end Cert.Val
-- ==== Proof.LibMaskScatter.lean ====
/-
  Zeroing rows by a product against zeroing rows by overwriting.

  Two ways to clear the rows of an [N, C] array y that a list of E row numbers names:
  (a) overwrite: a "set" scatter of E zero rows into y, row e going to row idx[e, 0];
  (b) multiply: build an [N, 1] column "keep" from a column of ones by a "set" scatter of E zero scalars, scalar e
      going to cell (idx[e, 0], 0) — its index vector is the pair (idx[e, 0], 0) —, and form y(n, c) · keep(n, 0).
  Entry by entry the two agree on the extended reals: if some e names row n, (a) reads 0 there (every update that
  lands is a zero) and keep(n, 0) is 0, and y · 0 = 0 for every extended real y, the infinite ones included; if no
  e names row n, nothing lands on (n, c) nor on (n, 0), (a) reads y(n, c), keep(n, 0) is 1, and y · 1 = y.
  Row numbers outside [0, N) land nowhere on either side.  Nothing depends on the sizes N, C, E.
-/
import Idealize.ShloMosaic.PureOps.ShapeOps
import Idealize.ShloMosaic.PureOps.Ideal
import Idealize.ShloMosaic.Lib.ValueIdx
import proofs.«116024_j67645734912700_1_alg».proof.Proof.LibScatterSet
import proofs.«116024_j67645734912700_1_alg».proof.Proof.LibScatterRows

namespace Cert.LibMaskScatter
open Idealize.ShloMosaic Idealize.ShloMosaic.ValueIdx

/-- The dimension numbers of a scatter of scalars into single cells of a column: operand [N, 1], indices [E, 2] with
    the index vector on axis 1 (a pair (row, column) per update) naming operand axes 0 and 1, updates [E] (no window
    axis: both operand axes are inserted). -/
abbrev cellDims (N E : Nat) (wf : ScatterDims.WF ⟨2, ![N, 1]⟩ ⟨2, ![E, 2]⟩ ⟨1, ![E]⟩ [] [0, 1] [0, 1] 1) :
    ScatterDims ⟨2, ![N, 1]⟩ ⟨2, ![E, 2]⟩ ⟨1, ![E]⟩ where
  updateWindowDims := []
  insertedWindowDims := [0, 1]
  scatterDimsToOperandDims := [0, 1]
  indexVectorDim := 1
  wf := wf

section Cell
variable {N E w : Nat} (wf : ScatterDims.WF ⟨2, ![N, 1]⟩ ⟨2, ![E, 2]⟩ ⟨1, ![E]⟩ [] [0, 1] [0, 1] 1)

/-- On the row axis the window of update e starts at idx[e, 0], read signed. -/
theorem cellDims_start_zero (e : Fin E) (idx : IVec ⟨2, ![E, 2]⟩ w) :
    (cellDims N E wf).start (ix1 e) idx 0 = (idx (ix2 e (0 : Fin 2))).toInt := by
  unfold ScatterDims.start
  rw [dif_pos (show (0 : Fin 2) ∈ (cellDims N E wf).scatterDimsToOperandDims from List.mem_cons_self)]
  have hsi : (cellDims N E wf).siIdx (ix1 e) ⟨List.idxOf (0 : Fin 2) (cellDims N E wf).scatterDimsToOperandDims,
      List.idxOf_lt_length_iff.2 List.mem_cons_self⟩ = ix2 e (0 : Fin 2) := by
    funext b; refine Fin.ext ?_
    match b with
    | ⟨0, _⟩ => rfl
    | ⟨1, _⟩ => rfl
  rw [hsi]

/-- On the column axis the window of update e starts at idx[e, 1], read signed. -/
theorem cellDims_start_one (e : Fin E) (idx : IVec ⟨2, ![E, 2]⟩ w) :
    (cellDims N E wf).start (ix1 e) idx 1 = (idx (ix2 e (1 : Fin 2))).toInt := by
  unfold ScatterDims.start
  rw [dif_pos (show (1 : Fin 2) ∈ (cellDims N E wf).scatterDimsToOperandDims from
    List.mem_cons_of_mem _ List.mem_cons_self)]
  have hsi : (cellDims N E wf).siIdx (ix1 e) ⟨List.idxOf (1 : Fin 2) (cellDims N E wf).scatterDimsToOperandDims,
      List.idxOf_lt_length_iff.2 (List.mem_cons_of_mem _ List.mem_cons_self)⟩ = ix2 e (1 : Fin 2) := by
    funext b; refine Fin.ext ?_
    match b with
    | ⟨0, _⟩ => rfl
    | ⟨1, _⟩ => rfl
  rw [hsi]

/-- Both operand axes are inserted: no window coordinate on the row axis. -/
theorem cellDims_window_zero (e : Fin E) : (cellDims N E wf).window (ix1 e) 0 = 0 := rfl

/-- Nor on the column axis. -/
theorem cellDims_window_one (e : Fin E) : (cellDims N E wf).window (ix1 e) 1 = 0 := rfl

/-- WHERE AN UPDATE LANDS: update e lands at cell (n, 0) of the column exactly when its index vector is (n, 0). -/
theorem cellDims_resultIdx?_eq_some_iff (e : Fin E) (n : Fin N) (idx : IVec ⟨2, ![E, 2]⟩ w) :
    (cellDims N E wf).resultIdx? (ix1 e) idx = some (ix2 n (0 : Fin 1)) ↔
      ((idx (ix2 e (0 : Fin 2))).toInt = (n.val : Int) ∧ (idx (ix2 e (1 : Fin 2))).toInt = 0) := by
  have hs0 := cellDims_start_zero wf e idx
  have hs1 := cellDims_start_one wf e idx
  have hw0 := cellDims_window_zero wf e
  have hw1 := cellDims_window_one wf e
  generalize (idx (ix2 e (0 : Fin 2))).toInt = v0 at hs0 ⊢
  generalize (idx (ix2 e (1 : Fin 2))).toInt = v1 at hs1 ⊢
  unfold ScatterDims.resultIdx?
  split
  · next h =>
    have b0 := h 0
    have b1 := h 1
    rw [hs0, hw0] at b0
    rw [hs1, hw1] at b1
    rw [Option.some.injEq]
    constructor
    · intro hf
      have f0 := congrArg Fin.val (congrFun hf 0)
      have f1 := congrArg Fin.val (congrFun hf 1)
      simp only [hs0, hw0, hs1, hw1] at f0 f1
      change (v0 + ((0 : Nat) : Int)).toNat = n.val at f0
      change (v1 + ((0 : Nat) : Int)).toNat = 0 at f1
      constructor <;> omega
    · rintro ⟨hv0, hv1⟩
      funext a
      refine Fin.ext ?_
      match a with
      | ⟨0, _⟩ =>
        show ((cellDims N E wf).start (ix1 e) idx 0 + ((cellDims N E wf).window (ix1 e) 0 : Int)).toNat = n.val
        rw [hs0, hw0]; omega
      | ⟨1, _⟩ =>
        show ((cellDims N E wf).start (ix1 e) idx 1 + ((cellDims N E wf).window (ix1 e) 1 : Int)).toNat = 0
        rw [hs1, hw1]; omega
  · next h =>
    constructor
    · intro hf; exact absurd hf (by simp)
    · rintro ⟨hv0, hv1⟩
      exfalso; apply h
      intro a
      match a with
      | ⟨0, _⟩ =>
        show 0 ≤ (cellDims N E wf).start (ix1 e) idx 0 + ((cellDims N E wf).window (ix1 e) 0 : Int) ∧
          (cellDims N E wf).start (ix1 e) idx 0 + ((cellDims N E wf).window (ix1 e) 0 : Int) < (N : Int)
        rw [hs0, hw0]; have := n.isLt; omega
      | ⟨1, _⟩ =>
        show 0 ≤ (cellDims N E wf).start (ix1 e) idx 1 + ((cellDims N E wf).window (ix1 e) 1 : Int) ∧
          (cellDims N E wf).start (ix1 e) idx 1 + ((cellDims N E wf).window (ix1 e) 1 : Int) < ((1 : Nat) : Int)
        rw [hs1, hw1]; omega

end Cell

/-- THE TWO MASKS AGREE: overwriting the named rows of y with zero rows is, entry by entry, y times the column that
    holds 0 in the named rows and 1 elsewhere — the column itself made from ones by overwriting the cells (row, 0)
    with zeros.  The rows are named by the same numbers on both sides (h0), the column's index vectors carry 0 as
    their second component (h1). -/
theorem mask_eq {N C E : Nat}
    (wfK : ScatterDims.WF ⟨2, ![N, 1]⟩ ⟨2, ![E, 2]⟩ ⟨1, ![E]⟩ [] [0, 1] [0, 1] 1)
    (wfR : ScatterDims.WF ⟨2, ![N, C]⟩ ⟨2, ![E, 1]⟩ ⟨2, ![E, C]⟩ [1] [0] [0] 1)
    (y : (⟨2, ![N, C]⟩ : Shape).Idx → EReal) (idxK : IVec ⟨2, ![E, 2]⟩ 32) (idxR : IVec ⟨2, ![E, 1]⟩ 32)
    (h0 : ∀ e : Fin E, idxK (ix2 e (0 : Fin 2)) = idxR (ix2 e (0 : Fin 1)))
    (h1 : ∀ e : Fin E, idxK (ix2 e (1 : Fin 2)) = 0#32)
    (updK : (⟨1, ![E]⟩ : Shape).Idx → EReal) (hK : ∀ j, updK j = 0)
    (updR : (⟨2, ![E, C]⟩ : Shape).Idx → EReal) (hR : ∀ j, updR j = 0)
    (ones : (⟨2, ![N, 1]⟩ : Shape).Idx → EReal) (h1s : ∀ j, ones j = 1) (n : Fin N) (c : Fin C) :
    Host.scatter (Cert.Val.rowDims N C E wfR) (fun _ b => b) y idxR updR (ix2 n c)
      = y (ix2 n c) * Host.scatter (cellDims N E wfK) (fun _ b => b) ones idxK updK (ix2 n (0 : Fin 1)) := by
  by_cases hhit : ∃ e : Fin E, (idxR (ix2 e (0 : Fin 1))).toInt = (n.val : Int)
  · -- some update names row n: both scatters read 0 there
    obtain ⟨e, he⟩ := hhit
    have hL : Host.scatter (Cert.Val.rowDims N C E wfR) (fun _ b => b) y idxR updR (ix2 n c) = 0 :=
      Cert.LibScatterSet.scatter_set_apply _ y idxR updR (ix2 n c) 0 (fun j _ => hR j)
        (Or.inr ⟨ix2 e c, (Cert.Val.rowDims_resultIdx?_eq_some_iff wfR e c n c idxR).2 ⟨he, rfl⟩⟩)
    have hM : Host.scatter (cellDims N E wfK) (fun _ b => b) ones idxK updK (ix2 n (0 : Fin 1)) = 0 :=
      Cert.LibScatterSet.scatter_set_apply _ ones idxK updK (ix2 n (0 : Fin 1)) 0 (fun j _ => hK j)
        (Or.inr ⟨ix1 e, (cellDims_resultIdx?_eq_some_iff wfK e n idxK).2
          ⟨by rw [h0 e]; exact he, by rw [h1 e]; rfl⟩⟩)
    rw [hL, hM, mul_zero]
  · -- no update names row n: nothing lands on (n, c) nor on (n, 0)
    have hL : Host.scatter (Cert.Val.rowDims N C E wfR) (fun _ b => b) y idxR updR (ix2 n c) = y (ix2 n c) := by
      refine Cert.LibScatterSet.scatter_set_apply _ y idxR updR (ix2 n c) (y (ix2 n c)) (fun j hj => ?_) (Or.inl rfl)
      rw [eq_ix2 j] at hj
      exact absurd ⟨j 0, ((Cert.Val.rowDims_resultIdx?_eq_some_iff wfR (j 0) (j 1) n c idxR).1 hj).1⟩ hhit
    have hM : Host.scatter (cellDims N E wfK) (fun _ b => b) ones idxK updK (ix2 n (0 : Fin 1)) = 1 := by
      refine Cert.LibScatterSet.scatter_set_apply _ ones idxK updK (ix2 n (0 : Fin 1)) 1 (fun j hj => ?_)
        (Or.inl (h1s _))
      rw [eq_ix1 j] at hj
      have hv := ((cellDims_resultIdx?_eq_some_iff wfK (j 0) n idxK).1 hj).1
      rw [h0 (j 0)] at hv
      exact absurd ⟨j 0, hv⟩ hhit
    rw [hL, hM, mul_one]

end Cert.LibMaskScatter
-- ==== Proof.LibCat2.lean ====
/-
  Rank-2 arrays cut and joined, read at coordinates, for any sizes and any element type.

  * a slice of an n x w array from offsets (o0, o1), read at (p, q), is the array at (o0 + p, o1 + q);
  * two blocks stacked along the rows (n1 rows over n2 rows), read at (p, q), is the upper block at (p, q) when
    p < n1 and the lower block at (p - n1, q) otherwise;
  * two blocks set side by side along the columns (w1 columns, then w2), read at (p, q), is the left block at (p, q)
    when q < w1 and the right block at (p, q - w1) otherwise.
-/
import Idealize.ShloMosaic.Lib.Pipeline.Value
import Idealize.ShloMosaic.Lib.ValueIdx

namespace Cert.LibCat2

open Idealize.ShloMosaic Idealize.ShloMosaic.ValueIdx

variable {α : Type}

/-- A slice from offsets (o0, o1) read at (p, q) is the array at (o0 + p, o1 + q). -/
theorem slice_apply {n w n' w' : ℕ} (o0 o1 : ℕ) (x : (⟨2, ![n, w]⟩ : Shape).Idx → α)
    (h : (⟨2, ![n, w]⟩ : Shape).Slices ![o0, o1] (⟨2, ![n', w']⟩ : Shape)) (p : Fin n') (q : Fin w')
    (hp : o0 + p.val < n) (hq : o1 + q.val < w) :
    extractStridedSlice (⟨2, ![n', w']⟩ : Shape) ![o0, o1] x h (ix2 p q) = x (ix2 (⟨o0 + p.val, hp⟩ : Fin n) (⟨o1 + q.val, hq⟩ : Fin w)) :=
  extractStridedSlice_apply ![o0, o1] x h (ix2 p q) (ix2 (⟨o0 + p.val, hp⟩ : Fin n) (⟨o1 + q.val, hq⟩ : Fin w))
    (fun a => match a with
      | ⟨0, _⟩ => rfl
      | ⟨1, _⟩ => rfl)

/-- Two blocks stacked along the rows, read at (p, q): the upper block when p is one of its rows, else the lower block
    at row p - n1. -/
theorem rows_apply {n1 n2 n w : ℕ} (hn : n = n1 + n2) (x1 : (⟨2, ![n1, w]⟩ : Shape).Idx → α) (x2 : (⟨2, ![n2, w]⟩ : Shape).Idx → α)
    (h : Shape.Concatenates [(⟨2, ![n1, w]⟩ : Shape), (⟨2, ![n2, w]⟩ : Shape)] (⟨2, ![n, w]⟩ : Shape) (0 : Fin 2))
    (p : Fin n) (q : Fin w) :
    concatenate (⟨2, ![n, w]⟩ : Shape) (0 : Fin 2) [⟨(⟨2, ![n1, w]⟩ : Shape), x1⟩, ⟨(⟨2, ![n2, w]⟩ : Shape), x2⟩] h (ix2 p q)
      = if hp : p.val < n1 then x1 (ix2 (⟨p.val, hp⟩ : Fin n1) q)
        else x2 (ix2 (⟨p.val - n1, by have := p.isLt; omega⟩ : Fin n2) q) := by
  split
  · rename_i hp
    exact concatenate_pair_apply_left (0 : Fin 2) x1 x2 h (ix2 p q) rfl (ix2 (⟨p.val, hp⟩ : Fin n1) q)
      (fun b => match b with
        | ⟨0, _⟩ => rfl
        | ⟨1, _⟩ => rfl)
  · rename_i hp
    exact concatenate_pair_apply_right (0 : Fin 2) x1 x2 h (ix2 p q) rfl rfl
      (ix2 (⟨p.val - n1, by have := p.isLt; omega⟩ : Fin n2) q)
      (fun b hb => match b, hb with
        | ⟨0, _⟩, hb => absurd rfl hb
        | ⟨1, _⟩, _ => rfl)
      (by show (p.val - n1) + n1 = p.val; omega)

/-- Two blocks set side by side along the columns, read at (p, q): the left block when q is one of its columns, else
    the right block at column q - w1. -/
theorem cols_apply {w1 w2 n w : ℕ} (hw : w = w1 + w2) (x1 : (⟨2, ![n, w1]⟩ : Shape).Idx → α) (x2 : (⟨2, ![n, w2]⟩ : Shape).Idx → α)
    (h : Shape.Concatenates [(⟨2, ![n, w1]⟩ : Shape), (⟨2, ![n, w2]⟩ : Shape)] (⟨2, ![n, w]⟩ : Shape) (1 : Fin 2))
    (p : Fin n) (q : Fin w) :
    concatenate (⟨2, ![n, w]⟩ : Shape) (1 : Fin 2) [⟨(⟨2, ![n, w1]⟩ : Shape), x1⟩, ⟨(⟨2, ![n, w2]⟩ : Shape), x2⟩] h (ix2 p q)
      = if hq : q.val < w1 then x1 (ix2 p (⟨q.val, hq⟩ : Fin w1))
        else x2 (ix2 p (⟨q.val - w1, by have := q.isLt; omega⟩ : Fin w2)) := by
  split
  · rename_i hq
    exact concatenate_pair_apply_left (1 : Fin 2) x1 x2 h (ix2 p q) rfl (ix2 p (⟨q.val, hq⟩ : Fin w1))
      (fun b => match b with
        | ⟨0, _⟩ => rfl
        | ⟨1, _⟩ => rfl)
  · rename_i hq
    exact concatenate_pair_apply_right (1 : Fin 2) x1 x2 h (ix2 p q) rfl rfl
      (ix2 p (⟨q.val - w1, by have := q.isLt; omega⟩ : Fin w2))
      (fun b hb => match b, hb with
        | ⟨0, _⟩, _ => rfl
        | ⟨1, _⟩, hb => absurd rfl hb)
      (by show (q.val - w1) + w1 = q.val; omega)

end Cert.LibCat2
-- ==== Proof.Bridge.lean ====
/-
  The reference's result and the kernel program's result are one function of the twelve arguments, at the ideal values.

  Both programs compute, for every node n and output column q,
    sum over k of max(sum over d of A[n, d] * W1[k, d] + b1[k], 0) * W2[q, k]  +  b2[q],
  where A is the aggregate of the messages: every edge, and one self loop per node, carries the hidden row of its
  source node plus two embedding rows, summed into its destination node.  The hidden row of node n is
  sum over k of act(a, x[n, k]) * W[d, k], cleared to zero when n is a masked node.

  The two programs differ in three places, none of which changes a value on the extended reals:
  the kernel narrows operands to a 16-bit float format and widens back (the identity at the ideal values); the kernel
  reads pre-transposed weights where the reference contracts against the transposes (the same entries); and the
  kernel clears the masked rows by multiplying with a 0/1 column where the reference overwrites them with zeros
  (y * 0 = 0 and y * 1 = y for every extended real y).  The gathers, the embedding sums and the scatter-add between
  are the same operations applied to the hidden array, so they are carried as one opaque function of it.
-/
import proofs.«116024_j67645734912700_1_alg».proof.Proof.Gen.ReferenceIdeal.Read
import proofs.«116024_j67645734912700_1_alg».proof.Proof.Mid
import proofs.«116024_j67645734912700_1_alg».proof.Proof.LibMaskScatter
import proofs.«116024_j67645734912700_1_alg».proof.Proof.LibCat2
import Idealize.ShloMosaic.Lib.ValueLayout
import Idealize.ShloMosaic.PureOps.Ideal.Laws

set_option maxRecDepth 16384

noncomputable section

namespace Cert.Bridge

open Idealize.ShloMosaic Idealize.ShloMosaic.ValueIdx Cert.Spec
open Cert.ReferenceIdeal.Read Cert.KernelIdeal.Mid

variable [hK : Cert.KernelIdeal.Facts] [hR : Cert.ReferenceIdeal.Facts]

/-- The float pattern of one denotes 1. -/
theorem one_f32 : Ideal.ofBits .f32 0x3F800000#32 = 1 := by
  simp [Ideal.ofBits, Ideal.ieee, -EReal.coe_mul]; norm_num

/-- The encoder before masking, entry by entry, is the reference's matrix product. -/
theorem enc_eq (x0 : (⟨Cert.ReferenceIdeal.S100000x300, .f32⟩ : BufTy).Contents (Elt Ideal))
    (x4 : (⟨Cert.ReferenceIdeal.S_, .f32⟩ : BufTy).Contents (Elt Ideal))
    (x5 : (⟨Cert.ReferenceIdeal.S300x300, .f32⟩ : BufTy).Contents (Elt Ideal)) (n : Fin 100000) (d : Fin 300) :
    val_main_v6 (F := Ideal) x0 x4 x5 (ix2 n d)
      = ∑ k : Fin 300, act (aOne (F := Ideal) x4 (ix2 (0 : Fin 1) (0 : Fin 1))) (x0 (ix2 n k)) * wEncT (F := Ideal) x5 (ix2 k d) := by
  rw [val_main_v6_apply]
  refine Finset.sum_congr rfl fun k _ => ?_
  have el : lidx_main_v6 (ix2 n d) k = ix2 n k := funext fun a => Fin.ext (by match a with | ⟨0, _⟩ => rfl | ⟨1, _⟩ => rfl)
  have er : idx_main_v5 (ridx_main_v6 (ix2 n d) k) = ix2 d k := funext fun a => Fin.ext (by match a with | ⟨0, _⟩ => rfl | ⟨1, _⟩ => rfl)
  rw [el, val_main_v5_apply, er, val_main_v4_apply, val_main_v1_apply, val_main_v3_apply, val_main_v2_apply, val_main_v0_apply,
    val_main_cst_apply]
  have ew : wEncT (F := Ideal) x5 (ix2 k d) = x5 (ix2 d k) := by
    unfold wEncT
    rw [truncf_apply]
    exact transpose_ix2_apply x5 _ k d
  have ea : aOne (F := Ideal) x4 (ix2 (0 : Fin 1) (0 : Fin 1)) = x4 (idx_main_v2 (ix2 n k)) := by
    unfold aOne shapeCast
    exact congrArg x4 (funext fun a => a.elim0)
  rw [ew, ea]
  rfl

/-- THE HIDDEN NODE ARRAY: the reference zeroes the masked rows by overwriting, the kernel by the keep column; entry by
    entry they are one function of the arguments. -/
theorem hidden_eq (x0 : (⟨Cert.ReferenceIdeal.S100000x300, .f32⟩ : BufTy).Contents (Elt Ideal))
    (x3 : (⟨Cert.ReferenceIdeal.S15000, .i32⟩ : BufTy).Contents (Elt Ideal))
    (x4 : (⟨Cert.ReferenceIdeal.S_, .f32⟩ : BufTy).Contents (Elt Ideal))
    (x5 : (⟨Cert.ReferenceIdeal.S300x300, .f32⟩ : BufTy).Contents (Elt Ideal)) :
    val_main_v14 (F := Ideal) x0 x3 x4 x5
      = encMasked (aOne (F := Ideal) x4) x0 (wEncT (F := Ideal) x5) (keepCol (F := Ideal) x3) := by
  funext i
  obtain ⟨n, d, rfl⟩ : ∃ (n : Fin 100000) (d : Fin 300), i = ix2 n d := ⟨i 0, i 1, eq_ix2 i⟩
  have key := Cert.LibMaskScatter.mask_eq (N := 100000) (C := 300) (E := 15000)
    Cert.KernelIdeal.Facts₀.scatter_S100000x1_S15000x2_S15000_n_01_01_1_wf
    Cert.ReferenceIdeal.Facts₀.scatter_S100000x300_S15000x1_S15000x300_1_0_0_1_wf
    (val_main_v6 (F := Ideal) x0 x4 x5)
    (concatenate Cert.KernelIdeal.S15000x2 1 [⟨Cert.KernelIdeal.S15000x1, (val_main_v12 (F := Ideal) x3)⟩, ⟨Cert.KernelIdeal.S15000x1, (broadcastInDim Cert.KernelIdeal.S15000x1 ![0] Cert.KernelIdeal.Facts₀.bcast_S15000_S15000x1_0 (id (broadcastInDim Cert.KernelIdeal.S15000 ![] Cert.KernelIdeal.Facts₀.bcast_S_S15000 (constantI Cert.KernelIdeal.S_ 32 0#32))))⟩] Cert.KernelIdeal.Facts₀.concatenates_S15000x1_S15000x1_S15000x2_d1)
    (val_main_v12 (F := Ideal) x3)
    (fun e => ?_) (fun e => ?_)
    (broadcastInDim Cert.KernelIdeal.S15000 ![] Cert.KernelIdeal.Facts₀.bcast_S_S15000 (constant (F := Ideal) Cert.KernelIdeal.S_ .f32 0x00000000#32))
    (fun j => Ideal.ofBits_zero_f32)
    (val_main_v13 (F := Ideal)) (fun j => Ideal.ofBits_zero_f32)
    (broadcastInDim Cert.KernelIdeal.S100000x1 ![] Cert.KernelIdeal.Facts₀.bcast_S_S100000x1 (constant (F := Ideal) Cert.KernelIdeal.S_ .f32 0x3F800000#32))
    (fun j => one_f32) n d
  · refine (show val_main_v14 (F := Ideal) x0 x3 x4 x5 (ix2 n d) = _ from key).trans ?_
    rw [enc_eq]
    rfl
  · rw [Cert.LibCat2.cols_apply (w1 := 1) (w2 := 1) rfl]
    rfl
  · rw [Cert.LibCat2.cols_apply (w1 := 1) (w2 := 1) rfl]
    rfl

/-- The aggregated messages: the two programs apply the same gathers and the same scatter-add to the hidden node array. -/
theorem aggr_eq (x0 : (⟨Cert.ReferenceIdeal.S100000x300, .f32⟩ : BufTy).Contents (Elt Ideal))
    (x1 : (⟨Cert.ReferenceIdeal.S2x400000, .i32⟩ : BufTy).Contents (Elt Ideal))
    (x2 : (⟨Cert.ReferenceIdeal.S400000x2, .i32⟩ : BufTy).Contents (Elt Ideal))
    (x3 : (⟨Cert.ReferenceIdeal.S15000, .i32⟩ : BufTy).Contents (Elt Ideal))
    (x4 : (⟨Cert.ReferenceIdeal.S_, .f32⟩ : BufTy).Contents (Elt Ideal))
    (x5 : (⟨Cert.ReferenceIdeal.S300x300, .f32⟩ : BufTy).Contents (Elt Ideal))
    (x6 : (⟨Cert.ReferenceIdeal.S24x300, .f32⟩ : BufTy).Contents (Elt Ideal))
    (x7 : (⟨Cert.ReferenceIdeal.S7x300, .f32⟩ : BufTy).Contents (Elt Ideal)) :
    val_main_v55 (F := Ideal) x0 x1 x2 x3 x4 x5 x6 x7
      = aggr (F := Ideal) (encMasked (aOne (F := Ideal) x4) x0 (wEncT (F := Ideal) x5) (keepCol (F := Ideal) x3)) x1 x2 x6 x7 := by
  rw [← hidden_eq]
  rfl

/-- THE RESULT: the reference's composed term is the kernel program's function of the arguments, entry by entry: the
    same sums of products, the weights read transposed on both sides, the bias rows read at their one row. -/
theorem result_eq (x0 : (⟨Cert.ReferenceIdeal.S100000x300, .f32⟩ : BufTy).Contents (Elt Ideal))
    (x1 : (⟨Cert.ReferenceIdeal.S2x400000, .i32⟩ : BufTy).Contents (Elt Ideal))
    (x2 : (⟨Cert.ReferenceIdeal.S400000x2, .i32⟩ : BufTy).Contents (Elt Ideal))
    (x3 : (⟨Cert.ReferenceIdeal.S15000, .i32⟩ : BufTy).Contents (Elt Ideal))
    (x4 : (⟨Cert.ReferenceIdeal.S_, .f32⟩ : BufTy).Contents (Elt Ideal))
    (x5 : (⟨Cert.ReferenceIdeal.S300x300, .f32⟩ : BufTy).Contents (Elt Ideal))
    (x6 : (⟨Cert.ReferenceIdeal.S24x300, .f32⟩ : BufTy).Contents (Elt Ideal))
    (x7 : (⟨Cert.ReferenceIdeal.S7x300, .f32⟩ : BufTy).Contents (Elt Ideal))
    (x8 : (⟨Cert.ReferenceIdeal.S600x300, .f32⟩ : BufTy).Contents (Elt Ideal))
    (x9 : (⟨Cert.ReferenceIdeal.S600, .f32⟩ : BufTy).Contents (Elt Ideal))
    (x10 : (⟨Cert.ReferenceIdeal.S300x600, .f32⟩ : BufTy).Contents (Elt Ideal))
    (x11 : (⟨Cert.ReferenceIdeal.S300, .f32⟩ : BufTy).Contents (Elt Ideal)) :
    val_main_v66 (F := Ideal) x0 x1 x2 x3 x4 x5 x6 x7 x8 x9 x10 x11 = out x0 x1 x2 x3 x4 x5 x6 x7 x8 x9 x10 x11 := by
  funext i
  obtain ⟨p, q, rfl⟩ : ∃ (p : Fin 100000) (q : Fin 300), i = ix2 p q := ⟨i 0, i 1, eq_ix2 i⟩
  have hb2 : x11 (idx_main_v64 (idx_main_v65 (ix2 p q))) = b2Row (F := Ideal) x11 (ix2 (0 : Fin 1) q) := by
    unfold b2Row
    rw [shapeCast_a_1a_apply]
    exact congrArg x11 (funext fun a => Fin.ext (by match a with | ⟨0, _⟩ => rfl))
  rw [val_main_v66_apply, val_main_v63_apply, val_main_v65_apply, val_main_v64_apply, hb2]
  show (∑ k : Fin 600, _) + _ = (∑ k : Fin 600, max ((∑ d : Fin 300, aggr (F := Ideal) _ x1 x2 x6 x7 (ix2 p d) * w1T (F := Ideal) x8 (ix2 d k)) + b1Row (F := Ideal) x9 (ix2 (0 : Fin 1) k)) zero32 * w2T (F := Ideal) x10 (ix2 k q)) + b2Row (F := Ideal) x11 (ix2 (0 : Fin 1) q)
  refine congrArg (· + b2Row (F := Ideal) x11 (ix2 (0 : Fin 1) q)) (Finset.sum_congr rfl fun k _ => ?_)
  have el : lidx_main_v63 (ix2 p q) k = ix2 p k := funext fun a => Fin.ext (by match a with | ⟨0, _⟩ => rfl | ⟨1, _⟩ => rfl)
  have er : idx_main_v62 (ridx_main_v63 (ix2 p q) k) = ix2 q k := funext fun a => Fin.ext (by match a with | ⟨0, _⟩ => rfl | ⟨1, _⟩ => rfl)
  have ew2 : w2T (F := Ideal) x10 (ix2 k q) = x10 (ix2 q k) := by
    unfold w2T
    rw [truncf_apply]
    exact transpose_ix2_apply x10 _ k q
  have hb1 : x9 (idx_main_v58 (idx_main_v59 (ix2 p k))) = b1Row (F := Ideal) x9 (ix2 (0 : Fin 1) k) := by
    unfold b1Row
    rw [shapeCast_a_1a_apply]
    exact congrArg x9 (funext fun a => Fin.ext (by match a with | ⟨0, _⟩ => rfl))
  rw [el, val_main_v62_apply, er, ew2, val_main_v61_apply, val_main_v60_apply, val_main_v59_apply, val_main_v58_apply, hb1,
    val_main_call1_v0_apply, val_main_call1_cst_apply, val_main_v57_apply, aggr_eq]
  refine congrArg (fun z => max (z + b1Row (F := Ideal) x9 (ix2 (0 : Fin 1) k)) zero32 * x10 (ix2 q k)) (Finset.sum_congr rfl fun d _ => ?_)
  have el' : lidx_main_v57 (ix2 p k) d = ix2 p d := funext fun a => Fin.ext (by match a with | ⟨0, _⟩ => rfl | ⟨1, _⟩ => rfl)
  have er' : idx_main_v56 (ridx_main_v57 (ix2 p k) d) = ix2 k d := funext fun a => Fin.ext (by match a with | ⟨0, _⟩ => rfl | ⟨1, _⟩ => rfl)
  have ew1 : w1T (F := Ideal) x8 (ix2 d k) = x8 (ix2 k d) := by
    unfold w1T
    rw [truncf_apply]
    exact transpose_ix2_apply x8 _ d k
  rw [el', val_main_v56_apply, er', ew1]

end Cert.Bridge

end
-- ==== Proof.Claims.lean ====
/-
  The five claims.  The three frames: the two kernel programs by their generated frames, the reference by its
  generated run with the result dropped.  The idealization rewrote nothing, so there is nothing to preserve.  The
  value claim: the kernel program's run ends with the result array at one function of the twelve arguments (the two
  regions' closed forms between the host stretches), the reference's run at its composed term, and the two are the same
  function of arguments that agree.
-/
import proofs.«116024_j67645734912700_1_alg».proof.Defs
import proofs.«116024_j67645734912700_1_alg».proof.Proof.Gen.Kernel.Frame
import proofs.«116024_j67645734912700_1_alg».proof.Proof.Gen.KernelIdeal.Frame
import proofs.«116024_j67645734912700_1_alg».proof.Proof.Gen.ReferenceIdeal.Read
import proofs.«116024_j67645734912700_1_alg».proof.Proof.Gen.Pre_finite_inputs
import proofs.«116024_j67645734912700_1_alg».proof.Proof.KernelRun
import proofs.«116024_j67645734912700_1_alg».proof.Proof.Host
import proofs.«116024_j67645734912700_1_alg».proof.Proof.Bridge

set_option maxRecDepth 16384

noncomputable section

open Idealize.ShloMosaic Idealize.ShloMosaic.TcCoe Idealize.SL.Sem

namespace Cert.Proof.Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel program's run: the result array at `out` of the arguments, the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v65)
        = Cert.KernelIdeal.Mid.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) :=
  (θ_run (Cert.KernelIdeal.defs (F := Ideal)) _ _).mono
    (fun r h c => ⟨(h c).1.trans (Cert.KernelIdeal.Host.W4_v65 m ρ c), (h c).2⟩)
    (Cert.KernelIdeal.Named.run_named (F := Ideal) m ρ)

theorem algebraic : Cert.algebraic_KernelIdeal_ReferenceIdeal := by
  intro m ρ m' ρ' _ hagree
  refine ⟨fun c => Cert.KernelIdeal.Mid.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v66_eq, Cert.Bridge.result_eq]
  obtain ⟨h0, h1, h2, h3, h4, h5, h6, h7, h8, h9, h10, h11⟩ := hagree c
  rw [h0, h1, h2, h3, h4, h5, h6, h7, h8, h9, h10, h11]

end Cert.Proof.Claims

end
-- ==== Proof.lean ====
/- The proof of `Cert.Claim`: the witnesses of the programs' stated facts (the generated instances), then the five
   claims of Proof/Claims.lean: the three frames, the (empty) idealization ledger, and the equality of the two idealized
   programs' results as extended reals. -/
import proofs.«116024_j67645734912700_1_alg».proof.Defs
import proofs.«116024_j67645734912700_1_alg».proof.Proof.Gen.Kernel
import proofs.«116024_j67645734912700_1_alg».proof.Proof.Gen.KernelIdeal
import proofs.«116024_j67645734912700_1_alg».proof.Proof.Gen.ReferenceIdeal
import proofs.«116024_j67645734912700_1_alg».proof.Proof.Gen.Pre_finite_inputs
import proofs.«116024_j67645734912700_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
